-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S2x6400000 : Shape := ⟨2, ![2, 6400000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x16 .f32) (main_arg4 : FVec F S16 .f32) (main_arg5 : IVec S2x6400000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x1 : Shape := ⟨2, ![100000, 1]⟩
abbrev S100000x16 : Shape := ⟨2, ![100000, 16]⟩
abbrev S4000x512 : Shape := ⟨2, ![4000, 512]⟩
abbrev S4000x1 : Shape := ⟨2, ![4000, 1]⟩
abbrev S4000x16 : Shape := ⟨2, ![4000, 16]⟩
abbrev S6500000x16 : Shape := ⟨2, ![6500000, 16]⟩
abbrev S1x16 : Shape := ⟨2, ![1, 16]⟩
abbrev S2000x16 : Shape := ⟨2, ![2000, 16]⟩
abbrev S2000x1 : Shape := ⟨2, ![2000, 1]⟩
abbrev S2000 : Shape := ⟨1, ![2000]⟩

abbrev nBuf : Space → Nat
  | .hbm => 61
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S2x6400000, .i32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .bf16⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000x16, .bf16⟩
  | .hbm, ⟨38, _⟩ => ⟨S6500000x16, .f32⟩
  | .hbm, ⟨39, _⟩ => ⟨S_, .f32⟩
  | .hbm, ⟨40, _⟩ => ⟨S100000x16, .f32⟩
  | .hbm, ⟨41, _⟩ => ⟨S6500000x1, .i32⟩
  | .hbm, ⟨42, _⟩ => ⟨S100000x16, .f32⟩
  | .hbm, ⟨43, _⟩ => ⟨S1x16, .f32⟩
  | .hbm, ⟨44, _⟩ => ⟨S100000x16, .bf16⟩
  | .hbm, ⟨45, _⟩ => ⟨S_, .i32⟩
  | .hbm, ⟨46, _⟩ => ⟨S6500000, .i32⟩
  | .hbm, ⟨47, _⟩ => ⟨S6500000, .i1⟩
  | .hbm, ⟨48, _⟩ => ⟨S_, .i32⟩
  | .hbm, ⟨49, _⟩ => ⟨S6500000, .i32⟩
  | .hbm, ⟨50, _⟩ => ⟨S6500000, .i32⟩
  | .hbm, ⟨51, _⟩ => ⟨S6500000, .i32⟩
  | .hbm, ⟨52, _⟩ => ⟨S6500000x1, .i32⟩
  | .hbm, ⟨53, _⟩ => ⟨S6500000x16, .bf16⟩
  | .hbm, ⟨54, _⟩ => ⟨S6500000x16, .f32⟩
  | .hbm, ⟨55, _⟩ => ⟨S_, .f32⟩
  | .hbm, ⟨56, _⟩ => ⟨S100000x16, .f32⟩
  | .hbm, ⟨57, _⟩ => ⟨S6500000x1, .i32⟩
  | .hbm, ⟨58, _⟩ => ⟨S100000x16, .f32⟩
  | .hbm, ⟨59, _⟩ => ⟨S1x16, .f32⟩
  | .hbm, ⟨60, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .bf16⟩
  | .local _ .vmem, ⟨6, _⟩ => ⟨S4000x16, .bf16⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S1x16, .f32⟩
  | .local _ .vmem, ⟨12, _⟩ => ⟨S16x16, .f32⟩
  | .local _ .vmem, ⟨13, _⟩ => ⟨S2000x16, .bf16⟩
  | .local _ .vmem, ⟨14, _⟩ => ⟨S2000x16, .bf16⟩
  | .local _ .vmem, ⟨15, _⟩ => ⟨S2000x16, .f32⟩
  | .local _ .vmem, ⟨16, _⟩ => ⟨S2000x16, .f32⟩
  | .local _ .vmem, ⟨17, _⟩ => ⟨S2000x1, .f32⟩
  | .local _ .vmem, ⟨18, _⟩ => ⟨S2000x1, .f32⟩
  | .local _ .vmem, ⟨19, _⟩ => ⟨S1x16, .f32⟩
  | .local _ .vmem, ⟨20, _⟩ => ⟨S2000x16, .f32⟩
  | .local _ .vmem, ⟨21, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  bcast_S_S100000x16 : S_.BroadcastsInDim S100000x16 (![] : Fin 0 → Fin S100000x16.rank)
  shapeCasts_S16_S1x16 : S16.ShapeCasts S1x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x16_S16x16_0_0 : ∀ a, (![0, 0] : Fin 2 → Nat) a + S16x16.size a ≤ S16x16.size a
  h_S16x16 : 0 < S16x16.numel
  packedbf16_S2000x16_S2000x16_0_0 : (Rect.unit (s := S2000x16) ![0, 0] S2000x16.size inb_S2000x16_S2000x16_0_0).PackedRows (EltTy.packing .bf16)
  reduces_S2000x16_S2000 : S2000x16.Reduces [1] S2000
  shapeCasts_S2000_S2000x1 : S2000.ShapeCasts S2000x1
  scatter_S100000_S6500000x1_S6500000_n_0_0_1_wf : ScatterDims.WF S100000 S6500000x1 S6500000 [] [0] [0] 1
  dot_S4000x512_S512x16_S4000x16_1_0_0_1_n_n_wf : DotDims.WF S4000x512 S512x16 S4000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S2000x16_S16x16_S2000x16_1_0_0_1_n_n_wf : DotDims.WF S2000x16 S16x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .bf16 = 32 ∨ (Rect.block (s := S100000x16) S4000x16.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .bf16 = 32 ∨ (Rect.block (s := S100000x16) S2000x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x16.size a ≤ S100000x16.size a
  hwx2_3 : ∀ i : grid2.Coords, EltTy.bits .f32 = 32 ∨ (Rect.block (s := S100000x16) S2000x16.size (cc2_transform_3 i) (hinb2_3 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x1 : Shape := ⟨2, ![100000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S2x6400000, .i32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S6500000x1, .f32⟩
  | .hbm, ⟨47, _⟩ => ⟨S100000x16, .f32⟩
  | .hbm, ⟨48, _⟩ => ⟨S_, .i32⟩
  | .hbm, ⟨49, _⟩ => ⟨S6500000, .i32⟩
  | .hbm, ⟨50, _⟩ => ⟨S6500000, .i1⟩
  | .hbm, ⟨51, _⟩ => ⟨S_, .i32⟩
  | .hbm, ⟨52, _⟩ => ⟨S6500000, .i32⟩
  | .hbm, ⟨53, _⟩ => ⟨S6500000, .i32⟩
  | .hbm, ⟨54, _⟩ => ⟨S6500000, .i32⟩
  | .hbm, ⟨55, _⟩ => ⟨S6500000x1, .i32⟩
  | .hbm, ⟨56, _⟩ => ⟨S6500000x16, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x16, .f32⟩
  | .hbm, ⟨79, _⟩ => ⟨S6500000x16, .f32⟩
  | .hbm, ⟨80, _⟩ => ⟨S6500000x16, .f32⟩
  | .hbm, ⟨81, _⟩ => ⟨S_, .f32⟩
  | .hbm, ⟨82, _⟩ => ⟨S100000x16, .f32⟩
  | .hbm, ⟨83, _⟩ => ⟨S6500000x1, .i32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x16, .f32⟩
  | .hbm, ⟨95, _⟩ => ⟨S100000x16, .f32⟩
  | .hbm, ⟨96, _⟩ => ⟨S100000x16, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x16, .f32⟩
  | .hbm, ⟨102, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_call2_cst_0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_cst_1 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x512_S512x16_S100000x16_1_0_0_1_n_n_wf : DotDims.WF S100000x512 S512x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x16_S100000x16_1_0_0_1_n_n_wf : DotDims.WF S100000x16 S16x16 S100000x16 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.KernelRun.lean ====
/-
  The idealized kernel's run with its result named.

  The program is eight segments: three stretches of host operations, the first dense stage, a stretch (gather the
  scaled rows by source, add them up by target), the second dense stage, the same stretch again, the third dense
  stage. The contents of every buffer at each boundary are a fold from the launch memory (`W0` … `W8`). Every weakly
  fair execution terminates, without a fault, in a state whose unscoped buffers hold the last boundary's contents
  `W8`; in particular the result buffer holds `W8` at the result, which is the third stage's output array after its
  last write-back, and the arguments are as launched.
-/
import proofs.«156736_j44598940402302_2_alg».proof.Proof.Gen.KernelIdeal.Frame

set_option maxRecDepth 16384

noncomputable section

namespace Cert.KernelIdeal.Outcome

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the third stage's output window's array: at the last boundary it holds what that stage's
    write-backs leave. -/
theorem result_at_end (c : Dev nD) :
    W8 m ρ c (Proc.devRef .tc main_v42) = (dat2 (V7 m ρ) c).arrAt 3 cfg2.N :=
  W8_arr m ρ c 3

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Outcome

end
-- ==== Proof.Boundaries.lean ====
/-
  What each buffer holds at each boundary of the idealized kernel's run, walked back to the launch memory.

  The run's boundaries are `W0` (launch) … `W8` (return). A stretch of host operations changes only the buffers its
  operations write; a dense stage changes only its output array. So the two index vectors (sources, targets), the
  column of inverse square-root degrees and the argument arrays are, at every later boundary, what they were when
  they were written; and the arrays a stretch does write are its operations' terms of the buffers before it.
-/
import proofs.«156736_j44598940402302_2_alg».proof.Proof.Gen.KernelIdeal.Frame
import Idealize.ShloMosaic.Lib.StableHlo.Run
import Idealize.ShloMosaic.PureOps.Ideal
import proofs.«156736_j44598940402302_2_alg».proof.Proof.LibTypedRefs
import proofs.«156736_j44598940402302_2_alg».proof.Proof.RefRead

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A stretch of host operations leaves a buffer none of them writes as it was. -/
local macro "unwritten " ops:ident : tactic => `(tactic|
  exact StableHlo.after_of_forall_not_mem (b := _) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Buffers that a stretch or a stage leaves alone -/

theorem main_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by unwritten hostOps0_2
    _ = W1 m ρ c (Proc.devRef .tc main_v3) := by unwritten hostOps0_1

theorem main_v6_4_1 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by unwritten hostOps0_2
    _ = W1 m ρ c (Proc.devRef .tc main_v6) := by unwritten hostOps0_1

theorem main_v3_6_4 : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by unwritten hostOps1

theorem main_v6_6_4 : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by unwritten hostOps1

theorem main_v15_5_3 : W5 m ρ c (Proc.devRef .tc main_v15) = W3 m ρ c (Proc.devRef .tc main_v15) :=
  calc W5 m ρ c (Proc.devRef .tc main_v15)
    _ = W4 m ρ c (Proc.devRef .tc main_v15) := by unwritten hostOps1
    _ = W3 m ρ c (Proc.devRef .tc main_v15) := (W4_arr m ρ c 2).trans (((dat0 (V3 m ρ) c).arrAt_in 2 rfl _).trans (A_eq0 (V3 m ρ) c 2))

theorem main_v15_7_5 : W7 m ρ c (Proc.devRef .tc main_v15) = W5 m ρ c (Proc.devRef .tc main_v15) :=
  calc W7 m ρ c (Proc.devRef .tc main_v15)
    _ = W6 m ρ c (Proc.devRef .tc main_v15) := by unwritten hostOps2
    _ = W5 m ρ c (Proc.devRef .tc main_v15) := (W6_arr m ρ c 1).trans (((dat1 (V5 m ρ) c).arrAt_in 1 rfl _).trans (A_eq1 (V5 m ρ) c 1))

theorem main_arg0_3_0 : W3 m ρ c (Proc.devRef .tc main_arg0) = W0 m ρ c (Proc.devRef .tc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0

theorem main_arg1_3_0 : W3 m ρ c (Proc.devRef .tc main_arg1) = W0 m ρ c (Proc.devRef .tc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0

theorem main_arg2_4_0 : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0

theorem main_arg3_5_0 : W5 m ρ c (Proc.devRef .tc main_arg3) = W0 m ρ c (Proc.devRef .tc main_arg3) :=
  calc W5 m ρ c (Proc.devRef .tc main_arg3)
    _ = W4 m ρ c (Proc.devRef .tc main_arg3) := by unwritten hostOps1
    _ = W3 m ρ c (Proc.devRef .tc main_arg3) := W4_of_ne m ρ c main_arg3 (by decide)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0

theorem main_arg4_6_0 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by unwritten hostOps1
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0

theorem main_arg5_1_0 : W1 m ρ c (Proc.devRef .tc main_arg5) = W0 m ρ c (Proc.devRef .tc main_arg5) :=
  calc W1 m ρ c (Proc.devRef .tc main_arg5)
    _ = W0 m ρ c (Proc.devRef .tc main_arg5) := by unwritten hostOps0

/-! ## What each stretch writes, in the reference's spelling of the same operations

The kernel's host operations before its first dense stage are, operation for operation, the reference's: the two index
vectors (every edge's source and target, then every node once), the in-degrees as a sum of ones by target, and the
inverse square root of the positive ones. The reference's own terms for these name them here. -/

/-- The edge indices as launched. -/
abbrev edges : (⟨S2x6400000, .i32⟩ : BufTy).Contents (Elt Ideal) := m ((c : Thread nD τ).loc main_arg5)

/-- The column of per-node factors: the inverse square-root degrees stood up as a column. -/
def factorColumn (ei : (⟨S2x6400000, .i32⟩ : BufTy).Contents (Elt Ideal)) : S100000x1.Idx → EReal :=
  shapeCast S100000x1 (Cert.ReferenceIdeal.ReadP.val_main_v14 (F := Ideal) ei) shapeCasts_S100000_S100000x1

/-- The rows of `rows` gathered by source and added up by target, from zero. -/
def neighbourSum (ei : (⟨S2x6400000, .i32⟩ : BufTy).Contents (Elt Ideal)) (rows : S100000x16.Idx → EReal) :
    S100000x16.Idx → EReal :=
  Host.scatterAdd (F := Ideal) (φ := .f32) Cert.ReferenceIdeal.scatter_S100000x16_S6500000x1_S6500000x16_1_0_0_1
    (Cert.ReferenceIdeal.ReadP.val_main_v41 (F := Ideal)) (Cert.ReferenceIdeal.ReadP.val_main_v42 (F := Ideal) ei)
    (Host.gather Cert.ReferenceIdeal.gather_S100000x16_S6500000x1_S6500000x16_1_0_n_n_0_1_116 rows (Cert.ReferenceIdeal.ReadP.val_main_v37 (F := Ideal) ei))

theorem sources_at1 : W1 m ρ c (Proc.devRef .tc main_v3) = Cert.ReferenceIdeal.ReadP.val_main_v3 (F := Ideal) (edges m c) := by
  show StableHlo.after hostOps0 (W0 m ρ c) (Proc.devRef .tc main_v3) = _
  after_results; rfl

theorem targets_at1 : W1 m ρ c (Proc.devRef .tc main_v6) = Cert.ReferenceIdeal.ReadP.val_main_v6 (F := Ideal) (edges m c) := by
  show StableHlo.after hostOps0 (W0 m ρ c) (Proc.devRef .tc main_v6) = _
  after_results; rfl

theorem positive_at1 : W1 m ρ c (Proc.devRef .tc main_v12) = Cert.ReferenceIdeal.ReadP.val_main_v12 (F := Ideal) (edges m c) := by
  show StableHlo.after hostOps0 (W0 m ρ c) (Proc.devRef .tc main_v12) = _
  after_results; rfl

theorem invsqrt_at1 : W1 m ρ c (Proc.devRef .tc main_v13) = Cert.ReferenceIdeal.ReadP.val_main_v13 (F := Ideal) (edges m c) := by
  show StableHlo.after hostOps0 (W0 m ρ c) (Proc.devRef .tc main_v13) = _
  after_results; rfl

theorem zero_at1 : W1 m ρ c (Proc.devRef .tc main_cst_2) = Cert.ReferenceIdeal.ReadP.val_main_cst_2 (F := Ideal) := by
  show StableHlo.after hostOps0 (W0 m ρ c) (Proc.devRef .tc main_cst_2) = _
  after_results; rfl

/-- The per-node factor: where the degree is positive its inverse square root, elsewhere zero. -/
theorem factor_at2 : W2 m ρ c (Proc.devRef .tc main_v14) = Cert.ReferenceIdeal.ReadP.val_main_v14 (F := Ideal) (edges m c) := by
  show StableHlo.after hostOps0_1 (W1 m ρ c) (Proc.devRef .tc main_v14) = _
  generalize hY : W1 m ρ c = Y
  after_results
  simp only [Cert.Lib.TypedRefs.ofBuf_toBuf, Cert.Lib.TypedRefs.toBuf_ofBuf]
  show (select (Y (Proc.devRef .tc main_v12) : IVec S100000 1) (Y (Proc.devRef .tc main_v13) : FVec Ideal S100000 .f32)
      (broadcastInDim S100000 ![] bcast_S_S100000 (id (Y (Proc.devRef .tc main_cst_2) : FVec Ideal S_ .f32)))
        : FVec Ideal S100000 .f32) = _
  subst hY
  rw [positive_at1, invsqrt_at1, zero_at1]
  rfl

theorem column_at3 : W3 m ρ c (Proc.devRef .tc main_v15) = factorColumn (edges m c) := by
  show StableHlo.after hostOps0_2 (W2 m ρ c) (Proc.devRef .tc main_v15) = _
  generalize hY : W2 m ρ c = Y
  after_results
  subst hY
  rw [factor_at2]
  rfl

theorem column_at5 : W5 m ρ c (Proc.devRef .tc main_v15) = factorColumn (edges m c) :=
  (main_v15_5_3 m ρ c).trans (column_at3 m ρ c)

theorem column_at7 : W7 m ρ c (Proc.devRef .tc main_v15) = factorColumn (edges m c) :=
  (main_v15_7_5 m ρ c).trans (column_at5 m ρ c)

/-- Before the second dense stage: the first stage's rows, gathered by source and summed by target. -/
theorem summed_at5 : W5 m ρ c (Proc.devRef .tc main_v27)
    = neighbourSum (edges m c) (W4 m ρ c (Proc.devRef .tc main_v16)) := by
  show StableHlo.after hostOps1 (W4 m ρ c) (Proc.devRef .tc main_v27) = _
  after_results
  rw [main_v6_4_1, main_v3_4_1, targets_at1, sources_at1]
  rfl

theorem bias_at5 : W5 m ρ c (Proc.devRef .tc main_v28)
    = shapeCast S1x16 (m ((c : Thread nD τ).loc main_arg2)) shapeCasts_S16_S1x16 := by
  show StableHlo.after hostOps1 (W4 m ρ c) (Proc.devRef .tc main_v28) = _
  after_results
  rw [main_arg2_4_0]
  rfl

theorem weights_at5 : W5 m ρ c (Proc.devRef .tc main_arg3) = m ((c : Thread nD τ).loc main_arg3) :=
  main_arg3_5_0 m ρ c

/-- Before the third dense stage: the second stage's rows, gathered by source and summed by target. -/
theorem summed_at7 : W7 m ρ c (Proc.devRef .tc main_v40)
    = neighbourSum (edges m c) (W6 m ρ c (Proc.devRef .tc main_v29)) := by
  show StableHlo.after hostOps2 (W6 m ρ c) (Proc.devRef .tc main_v40) = _
  after_results
  rw [main_v6_6_4, main_v3_6_4, main_v6_4_1, main_v3_4_1, targets_at1, sources_at1]
  rfl

theorem bias_at7 : W7 m ρ c (Proc.devRef .tc main_v41)
    = shapeCast S1x16 (m ((c : Thread nD τ).loc main_arg4)) shapeCasts_S16_S1x16 := by
  show StableHlo.after hostOps2 (W6 m ρ c) (Proc.devRef .tc main_v41) = _
  after_results
  rw [main_arg4_6_0]
  rfl

theorem launch_eq (b : Ref sig .tc) : W0 m ρ c (Proc.devRef .tc b) = m ((c : Thread nD τ).loc b) := rfl

end Cert.KernelIdeal.Boundary

end
-- ==== Proof.GraphConv.lean ====
/-
  Two rounds of graph convolution followed by a row-wise log-softmax, said index by index on the extended reals.

  A node array has 100000 rows. One round takes the rows of a feature matrix, multiplies them by a small weight
  matrix, and adds up, at each node, the rows of its in-neighbours weighted by the symmetric normalisation
  d(source) · d(target), d the inverse square root of the in-degree. The three functions below are what the three
  dense stages compute from the arrays they are handed; the sums over neighbours happen between the stages.
-/
import Idealize.ShloMosaic.PureOps.Ideal
import Idealize.ShloMosaic.Lib.ValueIdx

noncomputable section

namespace Cert.GraphConv

open Idealize.ShloMosaic Idealize.ShloMosaic.ValueIdx

/-- A matrix of 100000 rows and `b` columns, as the index set of its entries. -/
abbrev Mat (a b : Nat) : Shape := ⟨2, ![a, b]⟩

/-- Stage one: the product of the features with the first weights, each row `n` scaled by `d n`:
    `(∑ₖ x(n,k) · w(k,q)) · d(n)`. -/
def scaledProduct (x : (Mat 100000 512).Idx → EReal) (w : (Mat 512 16).Idx → EReal) (d : (Mat 100000 1).Idx → EReal) :
    (Mat 100000 16).Idx → EReal :=
  fun i => (∑ k : Fin 512, x (ix2 (i 0) k) * w (ix2 k (i 1))) * d (ix2 (i 0) 0)

/-- Stage two: the summed rows `a` scaled by `d`, a bias added, negative entries cut to zero, the product with the
    second weights, and the rows scaled by `d` again:
    `(∑ₖ max (a(n,k) · d(n) + b(k)) 0 · w(k,q)) · d(n)`. -/
def hiddenScaled (a : (Mat 100000 16).Idx → EReal) (d : (Mat 100000 1).Idx → EReal) (b : (Mat 1 16).Idx → EReal)
    (w : (Mat 16 16).Idx → EReal) : (Mat 100000 16).Idx → EReal :=
  fun i => (∑ k : Fin 16, max (a (ix2 (i 0) k) * d (ix2 (i 0) 0) + b (ix2 0 k)) 0 * w (ix2 k (i 1))) * d (ix2 (i 0) 0)

/-- The scores before the softmax: the summed rows scaled by `d`, plus a bias: `a(n,q) · d(n) + b(q)`. -/
def scores (a : (Mat 100000 16).Idx → EReal) (d : (Mat 100000 1).Idx → EReal) (b : (Mat 1 16).Idx → EReal) :
    (Mat 100000 16).Idx → EReal :=
  fun i => a (ix2 (i 0) (i 1)) * d (ix2 (i 0) 0) + b (ix2 0 (i 1))

/-- The greatest entry of row `n` of `z`, as a fold of `max` from the value of the word `0xFF800000`. -/
def rowMax (z : (Mat 100000 16).Idx → EReal) (n : Fin 100000) : EReal :=
  Finset.univ.fold max (Ideal.ofBits .f32 0xFF800000#32) (fun k : Fin 16 => z (ix2 n k))

/-- The log-softmax of each row: with `M` the row's greatest entry,
    `(z(n,q) − M) − log (∑ₖ exp (z(n,k) − M))`. -/
def logSoftmaxRows (z : (Mat 100000 16).Idx → EReal) : (Mat 100000 16).Idx → EReal :=
  fun i => (z (ix2 (i 0) (i 1)) - rowMax z (i 0)) - Ideal.log (∑ k : Fin 16, Ideal.exp (z (ix2 (i 0) k) - rowMax z (i 0)))

/-- Stage three: the log-softmax of the scores. -/
def classLogProbs (a : (Mat 100000 16).Idx → EReal) (d : (Mat 100000 1).Idx → EReal) (b : (Mat 1 16).Idx → EReal) :
    (Mat 100000 16).Idx → EReal :=
  logSoftmaxRows (scores a d b)

end Cert.GraphConv

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.StageArraysA.lean ====
/-
  The arrays the first two dense stages leave, index by index.

  Each stage is a row-blocked map: the grid walks the 100000 rows in blocks of TM rows, every point loads the rows of its
  block (and the small operands whole), computes a [TM, 16] block from them alone, and writes it back to the same rows of
  the result. Row r of the result is therefore computed by the point r / TM from row r of the row-blocked operands, and
  the result array is one function of the operand arrays: the stage's specification.
-/
import proofs.«156736_j44598940402302_2_alg».proof.Proof.Gen.KernelIdeal.Frame
import proofs.«156736_j44598940402302_2_alg».proof.Proof.GraphConv
import proofs.«156736_j44598940402302_2_alg».proof.Proof.LibPlainDot
import proofs.«156736_j44598940402302_2_alg».proof.Proof.LibVecIx2
import proofs.«156736_j44598940402302_2_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stages

open Cert.KernelIdeal Cert.KernelIdeal.Gen Idealize.ShloMosaic Idealize.ShloMosaic.TcCoe Idealize.SL.Sem
open Idealize.ShloMosaic.ValueIdx
open Idealize.ShloMosaic.Pipeline (Dat)

/-- The zero offset of a whole-block access. -/
theorem zero_offset : (![0, 0] : Fin 2 → Nat) = fun _ => 0 := funext fun a => by fin_cases a <;> rfl

/-! ## Stage one: the scaled product -/

/-- The block a point of stage one computes, at an entry: the product of the feature rows with the weights, the row
    scaled by its entry of the scaling column. -/
theorem product_block_apply (x0 : Vec Ideal S4000x512 .f32) (x1 : Vec Ideal S512x16 .f32) (x2 : Vec Ideal S4000x1 .f32)
    (p : Fin 4000) (q : Fin 16) :
    Gen.k0_pay1 x0 x1 x2 (ix2 p q) = (∑ k : Fin 512, x0 (ix2 p k) * x1 (ix2 k q)) * x2 (ix2 p (0 : Fin 1)) := by
  unfold Gen.k0_pay1
  refine (truncf_apply (ψ := .bf16) _ bitsLt_bf16_f32 (ix2 p q)).trans ?_
  refine (mulf_apply _ _ _).trans ?_
  refine congrArg₂ (· * ·) ?_ ?_
  · refine (Cert.PlainDot.matmul_zero_plain_apply (M := 4000) (K := 512) (N := 16) none _ _ p q).trans ?_
    rfl
  · refine (Cert.Lib.VecIx2.bcast_col (a := 4000) (b := 16) _ _ p q).trans ?_
    rw [shapeCast_self]

/-- The same, at any index of the block. -/
theorem product_block_eq (x0 : Vec Ideal S4000x512 .f32) (x1 : Vec Ideal S512x16 .f32) (x2 : Vec Ideal S4000x1 .f32)
    (j : S4000x16.Idx) :
    Gen.k0_pay1 x0 x1 x2 j = (∑ k : Fin 512, x0 (ix2 (j 0) k) * x1 (ix2 k (j 1))) * x2 (ix2 (j 0) (0 : Fin 1)) := by
  obtain ⟨p, q, rfl⟩ : ∃ (p : Fin 4000) (q : Fin 16), j = ix2 p q := ⟨j 0, j 1, eq_ix2 j⟩
  exact product_block_apply x0 x1 x2 p q

/-- The windows' block indices over the grid: point `t` takes block row `t` of each row-blocked operand and of the
    result, and the weights whole. -/
theorem block_rows1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The feature block of point `t` is rows `4000 t … 4000 t + 3999` of the features. -/
theorem features_block_apply (c : Dev nD) (t : Fin cfg0.N) (p : Fin 4000) (k : Fin 512) (r : Fin 100000)
    (hr : r.val = t.val * 4000 + p.val) :
    (Gen.iblk0 V c 0 t : Vec Ideal S4000x512 .f32) (ix2 p k) = (V c main_arg0 : S100000x512.Idx → EReal) (ix2 r k) := by
  obtain ⟨e0, e1, -⟩ := block_rows1 t
  unfold Gen.iblk0
  rw [View.read_apply]
  show V c main_arg0 _ = V c main_arg0 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 512 + 1 * k.val = k.val; rw [e1]; omega

/-- The weight block of every point is the weights. -/
theorem weights_block_apply (c : Dev nD) (t : Fin cfg0.N) (k : Fin 512) (q : Fin 16) :
    (Gen.iblk0 V c 1 t : Vec Ideal S512x16 .f32) (ix2 k q) = (V c main_arg1 : S512x16.Idx → EReal) (ix2 k q) := by
  obtain ⟨-, -, e0, e1, -⟩ := block_rows1 t
  unfold Gen.iblk0
  rw [View.read_apply]
  show V c main_arg1 _ = V c main_arg1 _
  congr 1
  funext a
  apply Fin.ext
  match a with
  | ⟨0, _⟩ => show win0_1.index t (0 : Fin 2) * 512 + 1 * k.val = k.val; rw [e0]; omega
  | ⟨1, _⟩ => show win0_1.index t (1 : Fin 2) * 16 + 1 * q.val = q.val; rw [e1]; omega

/-- The scaling block of point `t` is rows `4000 t … 4000 t + 3999` of the scaling column. -/
theorem scaling_block_apply (c : Dev nD) (t : Fin cfg0.N) (p : Fin 4000) (r : Fin 100000)
    (hr : r.val = t.val * 4000 + p.val) :
    (Gen.iblk0 V c 2 t : Vec Ideal S4000x1 .f32) (ix2 p (0 : Fin 1)) = (V c main_v15 : S100000x1.Idx → EReal) (ix2 r (0 : Fin 1)) := by
  obtain ⟨-, -, -, -, e0, e1, -⟩ := block_rows1 t
  unfold Gen.iblk0
  rw [View.read_apply]
  show V c main_v15 _ = V c main_v15 _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 1 + 1 * (0 : Fin 1).val = (0 : Fin 1).val; rw [e1]; rfl

end

section
variable (V : (c : Dev nD) → (b : Ref sig .tc) → Buf (Elt Ideal) ((c : Thread nD τ).loc b))

/-- What point `t` of stage one writes back is block `t` of the scaled product of the arrays the stage is handed. -/
theorem stage1_block (c : Dev nD) (t : Fin cfg0.N) :
    (Gen.dat0 (F := Ideal) V c).flushed 3 t
      = ((cfg0.win 3).blk t).view.read (Elt Ideal)
          (Cert.GraphConv.scaledProduct (V c main_arg0) (V c main_arg1) (V c main_v15)) := by
  show (cfg0.win 3).cut (grid0.coords t) ((Gen.dat0 V c).after 3 t) = _
  rw [Gen.after0_3]
  unfold Gen.out0_3
  rw [View.canon_unit_zero zero_offset]
  simp only [View.ld_unit_zero (S := S4000x512) zero_offset, View.ld_unit_zero (S := S512x16) zero_offset,
    View.ld_unit_zero (S := S4000x1) zero_offset]
  obtain ⟨-, -, -, -, -, -, e0, e1⟩ := block_rows1 t
  funext j
  show Gen.k0_pay1 (Gen.iblk0 V c 0 t) (Gen.iblk0 V c 1 t) (Gen.iblk0 V c 2 t) j
    = Cert.GraphConv.scaledProduct (V c main_arg0) (V c main_arg1) (V c main_v15) (((cfg0.win 3).blk t).view.emb j)
  have hr : ((((cfg0.win 3).blk t).view.emb j) 0).val = t.val * 4000 + (j 0).val := by
    show win0_3.index t (0 : Fin 2) * 4000 + 1 * (j 0).val = _
    rw [e0]; omega
  have hc : ((((cfg0.win 3).blk t).view.emb j) 1).val = (j 1).val := by
    show win0_3.index t (1 : Fin 2) * 16 + 1 * (j 1).val = _
    rw [e1]; omega
  refine (product_block_eq (Gen.iblk0 V c 0 t) (Gen.iblk0 V c 1 t) (Gen.iblk0 V c 2 t) j).trans ?_
  unfold Cert.GraphConv.scaledProduct
  refine congrArg₂ (· * ·) (Finset.sum_congr rfl fun k _ => congrArg₂ (· * ·) ?_ ?_) ?_
  · exact features_block_apply V c t (j 0) k _ hr
  · exact (weights_block_apply V c t k (j 1)).trans
      (congrArg (fun q => (V c main_arg1 : S512x16.Idx → EReal) (ix2 k q)) (Fin.ext hc.symm))
  · exact scaling_block_apply V c t (j 0) _ hr

end

/-- An index of the result is in point `t`'s block iff each coordinate is in the block's range on its axis. -/
theorem mem_block1 (t : Fin cfg0.N) (i : S100000x16.Idx) :
    i ∈ ((cfg0.win 3).blk t).view.set
      ↔ ∀ a : Fin 2, win0_3.index t a * S4000x16.size a ≤ (i a).val
          ∧ (i a).val < win0_3.index t a * S4000x16.size a + S4000x16.size a := by
  show i ∈ ((View.whole main_v16).slice (win0_3.rect t)).set ↔ _
  rw [View.set_slice_whole, Rect.mem_set_unit]
  exact Iff.rfl

/-- Every index of the result is in the block of the point its row falls to: row `r` is written by point `r / 4000`. -/
theorem stage1_cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ : ∃ t : Fin cfg0.N, t.val = (i 0).val / 4000 :=
    ⟨⟨(i 0).val / 4000, by show (i 0).val / 4000 < 25; omega⟩, rfl⟩
  obtain ⟨-, -, -, -, -, -, e0, e1⟩ := block_rows1 t
  refine ⟨t, Gen.flush0_3 t, ?_⟩
  rw [mem_block1]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 16 ≤ (i 1).val ∧ (i 1).val < win0_3.index t (1 : Fin 2) * 16 + 16
    rw [e1]; omega

section
variable (V : (c : Dev nD) → (b : Ref sig .tc) → Buf (Elt Ideal) ((c : Thread nD τ).loc b))

/-- THE ARRAY stage one leaves: the scaled product of the arrays it is handed. -/
theorem stage1_array (c : Dev nD) :
    (Gen.dat0 (F := Ideal) V c).arrAt 3 cfg0.N
      = Cert.GraphConv.scaledProduct (V c main_arg0) (V c main_arg1) (V c main_v15) :=
  (Gen.dat0 (F := Ideal) V c).arrAt_eq_of_cover 3
    (Cert.GraphConv.scaledProduct (V c main_arg0) (V c main_arg1) (V c main_v15))
    (fun t _ => stage1_block V c t) stage1_cover

end

/-! ## Stage two: the hidden layer, scaled -/

/-- The block a point of stage two computes, at an entry: the summed rows scaled, the bias added, negative entries cut
    to zero, the product with the second weights, and the row scaled again. (The body takes the scaling column first.) -/
theorem hidden_block_apply (d : Vec Ideal S2000x1 .f32) (a : Vec Ideal S2000x16 .f32) (b : Vec Ideal S1x16 .f32)
    (w : Vec Ideal S16x16 .f32) (p : Fin 2000) (q : Fin 16) :
    Gen.k1_pay1 d a b w (ix2 p q)
      = (∑ k : Fin 16, max (a (ix2 p k) * d (ix2 p (0 : Fin 1)) + b (ix2 (0 : Fin 1) k)) 0 * w (ix2 k q))
          * d (ix2 p (0 : Fin 1)) := by
  unfold Gen.k1_pay1
  refine (truncf_apply (ψ := .bf16) _ bitsLt_bf16_f32 (ix2 p q)).trans ?_
  refine (mulf_apply _ _ _).trans ?_
  have hd : ∀ n : Fin 16, broadcastTo S2000x16 (shapeCast S2000x1 d shapeCasts_S2000x1_S2000x1) broadcasts_S2000x1_S2000x16 (ix2 p n)
      = d (ix2 p (0 : Fin 1)) := fun n => by
    refine (Cert.Lib.VecIx2.bcast_col (a := 2000) (b := 16) _ _ p n).trans ?_
    rw [shapeCast_self]
  refine congrArg₂ (· * ·) ?_ (hd q)
  refine (Cert.PlainDot.matmul_zero_plain_apply (M := 2000) (K := 16) (N := 16) none _ _ p q).trans ?_
  refine Finset.sum_congr rfl fun k _ => congrArg₂ (· * ·) ?_ ?_
  · refine (truncf_apply (ψ := .bf16) _ bitsLt_bf16_f32 (ix2 p k)).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ (hd k)
        rw [shapeCast_self]
      · refine (broadcastTo_1b_ab_apply (a := 2000) (b := 16) _ _ p k).trans ?_
        rw [shapeCast_self]
    · exact Ideal.ofBits_zero_f32
  · exact truncf_apply (ψ := .bf16) _ bitsLt_bf16_f32 (ix2 k q)

/-- The same, at any index of the block. -/
theorem hidden_block_eq (d : Vec Ideal S2000x1 .f32) (a : Vec Ideal S2000x16 .f32) (b : Vec Ideal S1x16 .f32)
    (w : Vec Ideal S16x16 .f32) (j : S2000x16.Idx) :
    Gen.k1_pay1 d a b w j
      = (∑ k : Fin 16, max (a (ix2 (j 0) k) * d (ix2 (j 0) (0 : Fin 1)) + b (ix2 (0 : Fin 1) k)) 0 * w (ix2 k (j 1)))
          * d (ix2 (j 0) (0 : Fin 1)) := by
  obtain ⟨p, q, rfl⟩ : ∃ (p : Fin 2000) (q : Fin 16), j = ix2 p q := ⟨j 0, j 1, eq_ix2 j⟩
  exact hidden_block_apply d a b w p q

/-- The windows' block indices over the grid: point `t` takes block row `t` of the summed rows, of the scaling column
    and of the result, and the bias and the weights whole. -/
theorem block_rows2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The block of summed rows of point `t` is rows `2000 t … 2000 t + 1999` of the summed rows. -/
theorem summed_block_apply (c : Dev nD) (t : Fin cfg1.N) (p : Fin 2000) (k : Fin 16) (r : Fin 100000)
    (hr : r.val = t.val * 2000 + p.val) :
    (Gen.iblk1 V c 0 t : Vec Ideal S2000x16 .f32) (ix2 p k) = (V c main_v27 : S100000x16.Idx → EReal) (ix2 r k) := by
  obtain ⟨e0, e1, -⟩ := block_rows2 t
  unfold Gen.iblk1
  rw [View.read_apply]
  show V c main_v27 _ = V c main_v27 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 16 + 1 * k.val = k.val; rw [e1]; omega

/-- The scaling block of point `t` is rows `2000 t … 2000 t + 1999` of the scaling column. -/
theorem scaling_block2_apply (c : Dev nD) (t : Fin cfg1.N) (p : Fin 2000) (r : Fin 100000)
    (hr : r.val = t.val * 2000 + p.val) :
    (Gen.iblk1 V c 1 t : Vec Ideal S2000x1 .f32) (ix2 p (0 : Fin 1)) = (V c main_v15 : S100000x1.Idx → EReal) (ix2 r (0 : Fin 1)) := by
  obtain ⟨-, -, e0, e1, -⟩ := block_rows2 t
  unfold Gen.iblk1
  rw [View.read_apply]
  show V c main_v15 _ = V c main_v15 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * (0 : Fin 1).val = (0 : Fin 1).val; rw [e1]; rfl

/-- The bias block of every point is the bias row. -/
theorem bias_block_apply (c : Dev nD) (t : Fin cfg1.N) (k : Fin 16) :
    (Gen.iblk1 V c 2 t : Vec Ideal S1x16 .f32) (ix2 (0 : Fin 1) k) = (V c main_v28 : S1x16.Idx → EReal) (ix2 (0 : Fin 1) k) := by
  obtain ⟨-, -, -, -, e0, e1, -⟩ := block_rows2 t
  unfold Gen.iblk1
  rw [View.read_apply]
  show V c main_v28 _ = V c main_v28 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 16 + 1 * k.val = k.val; rw [e1]; omega

/-- The weight block of every point is the second weights. -/
theorem weights2_block_apply (c : Dev nD) (t : Fin cfg1.N) (k : Fin 16) (q : Fin 16) :
    (Gen.iblk1 V c 3 t : Vec Ideal S16x16 .f32) (ix2 k q) = (V c main_arg3 : S16x16.Idx → EReal) (ix2 k q) := by
  obtain ⟨-, -, -, -, -, -, e0, e1, -⟩ := block_rows2 t
  unfold Gen.iblk1
  rw [View.read_apply]
  show V c main_arg3 _ = V c main_arg3 _
  congr 1
  funext a
  apply Fin.ext
  match a with
  | ⟨0, _⟩ => show win1_3.index t (0 : Fin 2) * 16 + 1 * k.val = k.val; rw [e0]; omega
  | ⟨1, _⟩ => show win1_3.index t (1 : Fin 2) * 16 + 1 * q.val = q.val; rw [e1]; omega

/-- What point `t` of stage two writes back is block `t` of the scaled hidden layer of the arrays the stage is handed. -/
theorem stage2_block (c : Dev nD) (t : Fin cfg1.N) :
    (Gen.dat1 (F := Ideal) V c).flushed 4 t
      = ((cfg1.win 4).blk t).view.read (Elt Ideal)
          (Cert.GraphConv.hiddenScaled (V c main_v27) (V c main_v15) (V c main_v28) (V c main_arg3)) := by
  show (cfg1.win 4).cut (grid1.coords t) ((Gen.dat1 V c).after 4 t) = _
  rw [Gen.after1_4]
  unfold Gen.out1_4
  rw [View.canon_unit_zero zero_offset]
  simp only [View.ld_unit_zero (S := S2000x16) zero_offset, View.ld_unit_zero (S := S2000x1) zero_offset,
    View.ld_unit_zero (S := S1x16) zero_offset, View.ld_unit_zero (S := S16x16) zero_offset]
  obtain ⟨-, -, -, -, -, -, -, -, e0, e1⟩ := block_rows2 t
  funext j
  show Gen.k1_pay1 (Gen.iblk1 V c 1 t) (Gen.iblk1 V c 0 t) (Gen.iblk1 V c 2 t) (Gen.iblk1 V c 3 t) j
    = Cert.GraphConv.hiddenScaled (V c main_v27) (V c main_v15) (V c main_v28) (V c main_arg3)
        (((cfg1.win 4).blk t).view.emb j)
  have hr : ((((cfg1.win 4).blk t).view.emb j) 0).val = t.val * 2000 + (j 0).val := by
    show win1_4.index t (0 : Fin 2) * 2000 + 1 * (j 0).val = _
    rw [e0]; omega
  have hc : ((((cfg1.win 4).blk t).view.emb j) 1).val = (j 1).val := by
    show win1_4.index t (1 : Fin 2) * 16 + 1 * (j 1).val = _
    rw [e1]; omega
  refine (hidden_block_eq (Gen.iblk1 V c 1 t) (Gen.iblk1 V c 0 t) (Gen.iblk1 V c 2 t) (Gen.iblk1 V c 3 t) j).trans ?_
  unfold Cert.GraphConv.hiddenScaled
  have hd := scaling_block2_apply V c t (j 0) _ hr
  refine congrArg₂ (· * ·) (Finset.sum_congr rfl fun k _ => congrArg₂ (· * ·) ?_ ?_) hd
  · refine congrArg₂ max (congrArg₂ (· + ·) (congrArg₂ (· * ·) ?_ hd) ?_) rfl
    · exact summed_block_apply V c t (j 0) k _ hr
    · exact bias_block_apply V c t k
  · exact (weights2_block_apply V c t k (j 1)).trans
      (congrArg (fun q => (V c main_arg3 : S16x16.Idx → EReal) (ix2 k q)) (Fin.ext hc.symm))

end

/-- An index of the result is in point `t`'s block iff each coordinate is in the block's range on its axis. -/
theorem mem_block2 (t : Fin cfg1.N) (i : S100000x16.Idx) :
    i ∈ ((cfg1.win 4).blk t).view.set
      ↔ ∀ a : Fin 2, win1_4.index t a * S2000x16.size a ≤ (i a).val
          ∧ (i a).val < win1_4.index t a * S2000x16.size a + S2000x16.size a := by
  show i ∈ ((View.whole main_v29).slice (win1_4.rect t)).set ↔ _
  rw [View.set_slice_whole, Rect.mem_set_unit]
  exact Iff.rfl

/-- Every index of the result is in the block of the point its row falls to: row `r` is written by point `r / 2000`. -/
theorem stage2_cover (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ : ∃ t : Fin cfg1.N, t.val = (i 0).val / 2000 :=
    ⟨⟨(i 0).val / 2000, by show (i 0).val / 2000 < 50; omega⟩, rfl⟩
  obtain ⟨-, -, -, -, -, -, -, -, e0, e1⟩ := block_rows2 t
  refine ⟨t, Gen.flush1_4 t, ?_⟩
  rw [mem_block2]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 16 ≤ (i 1).val ∧ (i 1).val < win1_4.index t (1 : Fin 2) * 16 + 16
    rw [e1]; omega

section
variable (V : (c : Dev nD) → (b : Ref sig .tc) → Buf (Elt Ideal) ((c : Thread nD τ).loc b))

/-- THE ARRAY stage two leaves: the scaled hidden layer of the arrays it is handed. -/
theorem stage2_array (c : Dev nD) :
    (Gen.dat1 (F := Ideal) V c).arrAt 4 cfg1.N
      = Cert.GraphConv.hiddenScaled (V c main_v27) (V c main_v15) (V c main_v28) (V c main_arg3) :=
  (Gen.dat1 (F := Ideal) V c).arrAt_eq_of_cover 4
    (Cert.GraphConv.hiddenScaled (V c main_v27) (V c main_v15) (V c main_v28) (V c main_arg3))
    (fun t _ => stage2_block V c t) stage2_cover

end

end Cert.KernelIdeal.Stages

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«156736_j44598940402302_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«156736_j44598940402302_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.StageArrayB.lean ====
/-
  The third dense stage, from blocks to the array.  The stage takes the summed rows, their scaling column and a
  bias row, forms the scores a(n,q) · d(n) + b(q), and writes the log-softmax of each row of scores.  It works on
  blocks of 2000 rows, one grid point per block.  Here: what one point's block holds at an index, then that the
  fifty blocks are the restrictions of one function of the whole arrays and tile the rows, so the array the stage
  leaves is that function.
-/
import proofs.«156736_j44598940402302_2_alg».proof.Proof.Gen.KernelIdeal.Frame
import proofs.«156736_j44598940402302_2_alg».proof.Proof.GraphConv
import proofs.«156736_j44598940402302_2_alg».proof.Proof.LibVecIx2
import proofs.«156736_j44598940402302_2_alg».proof.Proof.LibLayout
import proofs.«156736_j44598940402302_2_alg».proof.Proof.LibRowMax
import proofs.«156736_j44598940402302_2_alg».proof.Proof.LibRowSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stages3

open Cert.KernelIdeal Cert.KernelIdeal.Gen Idealize.ShloMosaic Idealize.ShloMosaic.TcCoe Idealize.ShloMosaic.ValueIdx Idealize.SL.Sem
open Idealize.ShloMosaic.Pipeline (Dat)

/-! ## The log-softmax of one row -/

/-- The log-softmax of a row z of sixteen scores at q: with M the row's greatest entry (the fold of max from the
    value of the word 0xFF800000), (z q − M) − log (∑ₖ exp (z k − M)). -/
def rowLogSoftmax (z : Fin 16 → EReal) (q : Fin 16) : EReal :=
  (z q - (Finset.univ : Finset (Fin 16)).fold max (Ideal.ofBits .f32 0xFF800000#32) z)
    - Ideal.log (∑ k : Fin 16, Ideal.exp (z k - (Finset.univ : Finset (Fin 16)).fold max (Ideal.ofBits .f32 0xFF800000#32) z))

/-- The specification of the stage at an index is the log-softmax of that node's row of scores. -/
theorem classLogProbs_apply (a : (Cert.GraphConv.Mat 100000 16).Idx → EReal) (d : (Cert.GraphConv.Mat 100000 1).Idx → EReal)
    (b : (Cert.GraphConv.Mat 1 16).Idx → EReal) (i : (Cert.GraphConv.Mat 100000 16).Idx) :
    Cert.GraphConv.classLogProbs a d b i
      = rowLogSoftmax (fun k => a (ix2 (i 0) k) * d (ix2 (i 0) (0 : Fin 1)) + b (ix2 (0 : Fin 1) k)) (i 1) := rfl

/-- Row p of a block's scores, from the block's rows x0, scaling column x1 and the bias row x2: a(p,k) · d(p) + b(k). -/
def rowScores (x0 : Vec Ideal S2000x16 .f32) (x1 : Vec Ideal S2000x1 .f32) (x2 : Vec Ideal S1x16 .f32) (p : Fin 2000) :
    Fin 16 → EReal :=
  fun k => x0 (ix2 p k) * x1 (ix2 p (0 : Fin 1)) + x2 (ix2 (0 : Fin 1) k)

/-- A block's row of scores is the array's row n of scores when the block's entries are the arrays' entries on row n. -/
theorem rowScores_eq (x0 : Vec Ideal S2000x16 .f32) (x1 : Vec Ideal S2000x1 .f32) (x2 : Vec Ideal S1x16 .f32)
    (a : S100000x16.Idx → EReal) (d : S100000x1.Idx → EReal) (b : S1x16.Idx → EReal) (p : Fin 2000) (n : Fin 100000)
    (h0 : ∀ k : Fin 16, x0 (ix2 p k) = a (ix2 n k)) (h1 : x1 (ix2 p (0 : Fin 1)) = d (ix2 n (0 : Fin 1)))
    (h2 : ∀ k : Fin 16, x2 (ix2 (0 : Fin 1) k) = b (ix2 (0 : Fin 1) k)) :
    rowScores x0 x1 x2 p = fun k => a (ix2 n k) * d (ix2 n (0 : Fin 1)) + b (ix2 (0 : Fin 1) k) := by
  funext k
  unfold rowScores
  rw [h0 k, h1, h2 k]

/-! ## One block at an index -/

/-- The scores of a block of 2000 rows: the rows times their scaling column, plus the bias row. -/
def blockScores (v0 : Vec Ideal S2000x16 .f32) (v2 : Vec Ideal S2000x1 .f32) (v6 : Vec Ideal S1x16 .f32) :
    FVec Ideal S2000x16 .f32 :=
  addf (mulf (shapeCast S2000x16 v0 shapeCasts_S2000x16_S2000x16)
      (broadcastTo S2000x16 (shapeCast S2000x1 v2 shapeCasts_S2000x1_S2000x1) broadcasts_S2000x1_S2000x16))
    (broadcastTo S2000x16 (shapeCast S1x16 v6 shapeCasts_S1x16_S1x16) broadcasts_S1x16_S2000x16)

/-- The scores of a block at (p, k): a(p,k) · d(p) + b(k). -/
theorem blockScores_apply (v0 : Vec Ideal S2000x16 .f32) (v2 : Vec Ideal S2000x1 .f32) (v6 : Vec Ideal S1x16 .f32)
    (p : Fin 2000) (k : Fin 16) :
    blockScores v0 v2 v6 (ix2 p k) = v0 (ix2 p k) * v2 (ix2 p (0 : Fin 1)) + v6 (ix2 (0 : Fin 1) k) := by
  unfold blockScores
  rw [addf_apply, mulf_apply, shapeCast_self, shapeCast_self, shapeCast_self]
  rw [Cert.Lib.VecIx2.bcast_col, broadcastTo_1b_ab_apply]

/-- The column of the rows' greatest scores. -/
def blockMaxColumn (v0 : Vec Ideal S2000x16 .f32) (v2 : Vec Ideal S2000x1 .f32) (v6 : Vec Ideal S1x16 .f32) :
    FVec Ideal S2000x1 .f32 :=
  shapeCast S2000x1 (multiReduction (F := Ideal) .maximumf [1] S2000 (blockScores v0 v2 v6) 0xFF800000#32
    reduces_S2000x16_S2000 (.inl rfl) rfl) shapeCasts_S2000_S2000x1

/-- At (p, ·) it is the fold of max over row p's scores, from the value of the word 0xFF800000. -/
theorem blockMaxColumn_apply (v0 : Vec Ideal S2000x16 .f32) (v2 : Vec Ideal S2000x1 .f32) (v6 : Vec Ideal S1x16 .f32)
    (p : Fin 2000) (u : Fin 1) :
    blockMaxColumn v0 v2 v6 (ix2 p u)
      = (Finset.univ : Finset (Fin 16)).fold max (Ideal.ofBits .f32 0xFF800000#32)
          (fun k => v0 (ix2 p k) * v2 (ix2 p (0 : Fin 1)) + v6 (ix2 (0 : Fin 1) k)) := by
  unfold blockMaxColumn
  refine (Cert.Lib.RowMax.rowmax_column (blockScores v0 v2 v6) reduces_S2000x16_S2000 (.inl rfl) rfl
    shapeCasts_S2000_S2000x1 p u).trans ?_
  exact Finset.fold_congr fun k _ => blockScores_apply v0 v2 v6 p k

/-- The scores with each row's greatest entry taken off. -/
def blockShifted (v0 : Vec Ideal S2000x16 .f32) (v2 : Vec Ideal S2000x1 .f32) (v6 : Vec Ideal S1x16 .f32) :
    FVec Ideal S2000x16 .f32 :=
  subf (blockScores v0 v2 v6) (broadcastTo S2000x16 (blockMaxColumn v0 v2 v6) broadcasts_S2000x1_S2000x16)

theorem blockShifted_apply (v0 : Vec Ideal S2000x16 .f32) (v2 : Vec Ideal S2000x1 .f32) (v6 : Vec Ideal S1x16 .f32)
    (p : Fin 2000) (k : Fin 16) :
    blockShifted v0 v2 v6 (ix2 p k)
      = (v0 (ix2 p k) * v2 (ix2 p (0 : Fin 1)) + v6 (ix2 (0 : Fin 1) k))
        - (Finset.univ : Finset (Fin 16)).fold max (Ideal.ofBits .f32 0xFF800000#32)
            (fun k => v0 (ix2 p k) * v2 (ix2 p (0 : Fin 1)) + v6 (ix2 (0 : Fin 1) k)) := by
  unfold blockShifted
  rw [subf_apply, Cert.Lib.VecIx2.bcast_col, blockMaxColumn_apply, blockScores_apply]

/-- The body's result is the shifted scores less the broadcast column of the logarithms of the rows' sums of
    exponentials: the logarithm is taken on the column, before it is broadcast. -/
theorem payload_eq (v0 : Vec Ideal S2000x16 .f32) (v2 : Vec Ideal S2000x1 .f32) (v6 : Vec Ideal S1x16 .f32) :
    k2_pay1 (F := Ideal) v0 v2 v6 =
      subf (blockShifted v0 v2 v6)
        (broadcastTo S2000x16 (log (shapeCast S2000x1 (multiReduction (F := Ideal) .add [1] S2000
          (exp (blockShifted v0 v2 v6)) 0x00000000#32 reduces_S2000x16_S2000 (.inl rfl) rfl) shapeCasts_S2000_S2000x1))
          broadcasts_S2000x1_S2000x16) := rfl

/-- The body's result at (p, q): the log-softmax of row p's scores at q. -/
theorem payload_apply (v0 : Vec Ideal S2000x16 .f32) (v2 : Vec Ideal S2000x1 .f32) (v6 : Vec Ideal S1x16 .f32)
    (p : Fin 2000) (q : Fin 16) :
    k2_pay1 (F := Ideal) v0 v2 v6 (ix2 p q)
      = rowLogSoftmax (fun k => v0 (ix2 p k) * v2 (ix2 p (0 : Fin 1)) + v6 (ix2 (0 : Fin 1) k)) q := by
  rw [payload_eq, subf_apply, Cert.Lib.VecIx2.bcast_col, blockShifted_apply]
  show _ - Ideal.log (shapeCast S2000x1 (multiReduction (F := Ideal) .add [1] S2000
          (exp (blockShifted v0 v2 v6)) 0x00000000#32 reduces_S2000x16_S2000 (.inl rfl) rfl) shapeCasts_S2000_S2000x1
          (ix2 p (0 : Fin 1))) = _
  unfold rowLogSoftmax
  refine congrArg₂ (· - ·) rfl (congrArg Ideal.log ?_)
  refine (Cert.Lib.RowSum.rowsum_column (exp (blockShifted v0 v2 v6)) reduces_S2000x16_S2000 (.inl rfl) rfl
    shapeCasts_S2000_S2000x1 p (0 : Fin 1)).trans ?_
  refine Finset.sum_congr rfl fun k _ => ?_
  show Ideal.exp (blockShifted v0 v2 v6 (ix2 p k)) = _
  rw [blockShifted_apply]

/-- The body's result as a function on the block's indices. -/
theorem payload_fun (v0 : Vec Ideal S2000x16 .f32) (v2 : Vec Ideal S2000x1 .f32) (v6 : Vec Ideal S1x16 .f32)
    (j : S2000x16.Idx) :
    k2_pay1 (F := Ideal) v0 v2 v6 j
      = rowLogSoftmax (rowScores v0 v2 v6 (j 0)) (j 1) := by
  obtain ⟨p, q, rfl⟩ : ∃ (p : Fin 2000) (q : Fin 16), j = ix2 p q := ⟨j 0, j 1, eq_ix2 j⟩
  exact payload_apply v0 v2 v6 p q

/-! ## The blocks of the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the fifty points: point t takes row block t of the three row-blocked arrays and the
    whole bias row. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block of the summed rows is row 2000 t + p of the array. -/
theorem rows_block (c : Dev nD) (t : Fin cfg2.N) (p : Fin 2000) (k : Fin 16) (n : Fin 100000)
    (hn : n.val = t.val * 2000 + p.val) :
    (iblk2 (F := Ideal) V c 0 t : Vec Ideal S2000x16 .f32) (ix2 p k)
      = (V c main_v40 : S100000x16.Idx → EReal) (ix2 n k) := by
  obtain ⟨e0, e1, -⟩ := index_facts t
  unfold iblk2
  rw [View.read_apply]
  show (V c main_v40 : S100000x16.Idx → EReal) _ = _
  refine congrArg _ (funext fun a => Fin.ext ?_)
  match a with
  | ⟨0, _⟩ => show win2_0.index t (0 : Fin 2) * 2000 + 1 * p.val = n.val; omega
  | ⟨1, _⟩ => show win2_0.index t (1 : Fin 2) * 16 + 1 * k.val = k.val; omega

/-- Entry p of point t's block of the scaling column is entry 2000 t + p of the column. -/
theorem column_block (c : Dev nD) (t : Fin cfg2.N) (p : Fin 2000) (n : Fin 100000)
    (hn : n.val = t.val * 2000 + p.val) :
    (iblk2 (F := Ideal) V c 1 t : Vec Ideal S2000x1 .f32) (ix2 p (0 : Fin 1))
      = (V c main_v15 : S100000x1.Idx → EReal) (ix2 n (0 : Fin 1)) := by
  obtain ⟨-, -, e0, e1, -⟩ := index_facts t
  unfold iblk2
  rw [View.read_apply]
  show (V c main_v15 : S100000x1.Idx → EReal) _ = _
  refine congrArg _ (funext fun a => Fin.ext ?_)
  match a with
  | ⟨0, _⟩ => show win2_1.index t (0 : Fin 2) * 2000 + 1 * p.val = n.val; omega
  | ⟨1, _⟩ => show win2_1.index t (1 : Fin 2) * 1 + 1 * 0 = 0; omega

/-- Every point's block of the bias row is the whole row. -/
theorem bias_block (c : Dev nD) (t : Fin cfg2.N) (k : Fin 16) :
    (iblk2 (F := Ideal) V c 2 t : Vec Ideal S1x16 .f32) (ix2 (0 : Fin 1) k)
      = (V c main_v41 : S1x16.Idx → EReal) (ix2 (0 : Fin 1) k) := by
  obtain ⟨-, -, -, -, e0, e1, -⟩ := index_facts t
  unfold iblk2
  rw [View.read_apply]
  show (V c main_v41 : S1x16.Idx → EReal) _ = _
  refine congrArg _ (funext fun a => Fin.ext ?_)
  match a with
  | ⟨0, _⟩ => show win2_2.index t (0 : Fin 2) * 1 + 1 * 0 = 0; omega
  | ⟨1, _⟩ => show win2_2.index t (1 : Fin 2) * 16 + 1 * k.val = k.val; omega

/-- The log-softmax of row p of point t's blocks, at q, is the specification at the array index (2000 t + p, q). -/
theorem block_point (c : Dev nD) (t : Fin cfg2.N) (p : Fin 2000) (q : Fin 16) (i : S100000x16.Idx)
    (h0 : (i 0).val = t.val * 2000 + p.val) (h1 : (i 1).val = q.val) :
    rowLogSoftmax (rowScores (iblk2 (F := Ideal) V c 0 t) (iblk2 (F := Ideal) V c 1 t) (iblk2 (F := Ideal) V c 2 t) p) q
      = Cert.GraphConv.classLogProbs (V c main_v40) (V c main_v15) (V c main_v41) i := by
  rw [classLogProbs_apply]
  have hq : i 1 = q := Fin.ext h1
  rw [hq]
  exact congrArg (fun z => rowLogSoftmax z q)
    (rowScores_eq (iblk2 (F := Ideal) V c 0 t) (iblk2 (F := Ideal) V c 1 t) (iblk2 (F := Ideal) V c 2 t)
      (V c main_v40) (V c main_v15) (V c main_v41) p (i 0)
      (fun k => rows_block V c t p k (i 0) h0) (column_block V c t p (i 0) h0) (fun k => bias_block V c t k))

/-! ## From the blocks to the array -/

/-- What point t writes back is block t of the specification's function of the arrays the stage is handed. -/
theorem block_eq (c : Dev nD) (t : Fin cfg2.N) :
    (dat2 (F := Ideal) V c).flushed 3 t
      = ((cfg2.win 3).blk t).view.read (Elt Ideal)
          (Cert.GraphConv.classLogProbs (V c main_v40) (V c main_v15) (V c main_v41)) := by
  show (cfg2.win 3).cut (grid2.coords t) ((dat2 (F := Ideal) V c).after 3 t) = _
  rw [after2_3]
  unfold out2_3
  rw [View.canon_unit_zero zero_offsets]
  simp only [View.ld_unit_zero (S := S2000x16) zero_offsets, View.ld_unit_zero (S := S2000x1) zero_offsets,
    View.ld_unit_zero (S := S1x16) zero_offsets]
  obtain ⟨-, -, -, -, -, -, e0, e1⟩ := index_facts t
  funext j
  have hj0 : (j 0).val < 2000 := (j 0).isLt
  have hj1 : (j 1).val < 16 := (j 1).isLt
  rw [View.read_apply]
  show k2_pay1 (F := Ideal) (iblk2 V c 0 t) (iblk2 V c 1 t) (iblk2 V c 2 t) ((cfg2.win 3).xinj (grid2.coords t) j)
    = Cert.GraphConv.classLogProbs (V c main_v40) (V c main_v15) (V c main_v41) (((cfg2.win 3).blk t).view.emb j)
  refine (payload_fun (iblk2 V c 0 t) (iblk2 V c 1 t) (iblk2 V c 2 t) ((cfg2.win 3).xinj (grid2.coords t) j)).trans ?_
  refine block_point V c t _ _ (((cfg2.win 3).blk t).view.emb j) ?_ ?_
  · show win2_3.index t (0 : Fin 2) * 2000 + 1 * (j 0).val = t.val * 2000 + (j 0).val; omega
  · show win2_3.index t (1 : Fin 2) * 16 + 1 * (j 1).val = (j 1).val; omega

/-- An index of the array is in point t's block iff each coordinate is in the block's range on its axis. -/
theorem mem_block (t : Fin cfg2.N) (i : S100000x16.Idx) :
    i ∈ ((cfg2.win 3).blk t).view.set ↔ ∀ a : Fin 2, win2_3.index t a * S2000x16.size a ≤ (i a).val
      ∧ (i a).val < win2_3.index t a * S2000x16.size a + S2000x16.size a := by
  show i ∈ ((View.whole main_v42).slice (win2_3.rect t)).set ↔ _
  rw [View.set_slice_whole, Rect.mem_set_unit]
  exact Iff.rfl

/-- The fifty blocks tile the rows: row r is in the block of point r / 2000. -/
theorem blocks_cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 50 := N_2
  let t : Fin cfg2.N := ⟨(i 0).val / 2000, by rw [hN]; omega⟩
  obtain ⟨-, -, -, -, -, -, e0, e1⟩ := index_facts t
  have ht : t.val = (i 0).val / 2000 := rfl
  refine ⟨t, flush2_3 t, ?_⟩
  rw [mem_block]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 16 ≤ (i 1).val ∧ (i 1).val < win2_3.index t (1 : Fin 2) * 16 + 16
    omega

/-- The array the third stage leaves is the log-softmax of the scores of the arrays it is handed. -/
theorem stage3_array (c : Dev nD) :
    (dat2 (F := Ideal) V c).arrAt 3 cfg2.N
      = Cert.GraphConv.classLogProbs (V c main_v40) (V c main_v15) (V c main_v41) :=
  (dat2 (F := Ideal) V c).arrAt_eq_of_cover 3
    (Cert.GraphConv.classLogProbs (V c main_v40) (V c main_v15) (V c main_v41))
    (fun t _ => block_eq V c t) blocks_cover

end Cert.KernelIdeal.Stages3

end
-- ==== Proof.KernelValue.lean ====
/-
  The idealized kernel's result as one function of the launch arrays.

  With `f` the column of per-node factors (the inverse square-root in-degrees, zero at a node of degree zero) and
  `Σ` "gather the rows by source, add them up by target": the first dense stage leaves `(x·W₁)` with row `n` scaled by
  `f n`; the second takes `Σ` of that, scales row `n` by `f n`, adds the first bias, cuts at zero, multiplies by `W₂`
  and scales by `f n` again; the third takes `Σ` of that, scales by `f n`, adds the second bias and applies the row-wise
  log-softmax. Each stage's output array is what its blocks tile (the three stage theorems), each stage's inputs are
  what the host operations before it wrote (the boundary lemmas).
-/
import proofs.«156736_j44598940402302_2_alg».proof.Proof.Boundaries
import proofs.«156736_j44598940402302_2_alg».proof.Proof.StageArraysA
import proofs.«156736_j44598940402302_2_alg».proof.Proof.StageArrayB
import proofs.«156736_j44598940402302_2_alg».proof.Proof.KernelRun

set_option maxRecDepth 16384

noncomputable section

namespace Cert.KernelIdeal.Whole

open Cert.KernelIdeal Cert.KernelIdeal.Gen Cert.KernelIdeal.Boundary Cert.GraphConv
open Idealize.ShloMosaic Idealize.ShloMosaic.TcCoe Idealize.SL.Sem Idealize.ShloMosaic.StableHlo

/-- The kernel's result as a function of its six argument arrays. -/
def value (x0 : S100000x512.Idx → EReal) (x1 : S512x16.Idx → EReal) (x2 : S16.Idx → EReal) (x3 : S16x16.Idx → EReal)
    (x4 : S16.Idx → EReal) (ei : (⟨S2x6400000, .i32⟩ : BufTy).Contents (Elt Ideal)) : S100000x16.Idx → EReal :=
  classLogProbs
    (neighbourSum ei
      (hiddenScaled (neighbourSum ei (scaledProduct x0 x1 (factorColumn ei))) (factorColumn ei)
        (shapeCast S1x16 x2 shapeCasts_S16_S1x16) x3))
    (factorColumn ei) (shapeCast S1x16 x4 shapeCasts_S16_S1x16)

variable (m : (ℓ : Loc nD τ sig) → Buf (Elt Ideal) ℓ) (ρ : Dev nD → PrngReg) (c : Dev nD)

/-- After the first dense stage: the product's rows, each scaled by its node's factor. -/
theorem first_rows : W4 m ρ c (Proc.devRef .tc main_v16)
    = scaledProduct (m ((c : Thread nD τ).loc main_arg0)) (m ((c : Thread nD τ).loc main_arg1)) (factorColumn (edges m c)) := by
  refine (W4_arr m ρ c 3).trans ((Stages.stage1_array (V3 m ρ) c).trans ?_)
  show scaledProduct (W3 m ρ c (Proc.devRef .tc main_arg0)) (W3 m ρ c (Proc.devRef .tc main_arg1))
      (W3 m ρ c (Proc.devRef .tc main_v15)) = _
  rw [main_arg0_3_0, main_arg1_3_0, column_at3]

/-- After the second dense stage. -/
theorem second_rows : W6 m ρ c (Proc.devRef .tc main_v29)
    = hiddenScaled
        (neighbourSum (edges m c)
          (scaledProduct (m ((c : Thread nD τ).loc main_arg0)) (m ((c : Thread nD τ).loc main_arg1)) (factorColumn (edges m c))))
        (factorColumn (edges m c)) (shapeCast S1x16 (m ((c : Thread nD τ).loc main_arg2)) shapeCasts_S16_S1x16)
        (m ((c : Thread nD τ).loc main_arg3)) := by
  refine (W6_arr m ρ c 4).trans ((Stages.stage2_array (V5 m ρ) c).trans ?_)
  show hiddenScaled (W5 m ρ c (Proc.devRef .tc main_v27)) (W5 m ρ c (Proc.devRef .tc main_v15))
      (W5 m ρ c (Proc.devRef .tc main_v28)) (W5 m ρ c (Proc.devRef .tc main_arg3)) = _
  rw [summed_at5, column_at5, bias_at5, weights_at5, first_rows]

/-- At the end: the result buffer holds the kernel's value of the launch arrays. -/
theorem result_value : W8 m ρ c (Proc.devRef .tc main_v42)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 3).trans ((Stages3.stage3_array (V7 m ρ) c).trans ?_)
  show classLogProbs (W7 m ρ c (Proc.devRef .tc main_v40)) (W7 m ρ c (Proc.devRef .tc main_v15))
      (W7 m ρ c (Proc.devRef .tc main_v41)) = _
  rw [summed_at7, column_at7, bias_at7, second_rows]
  rfl

end Cert.KernelIdeal.Whole

end
-- ==== Proof.LibNonnegScale.lean ====
/-
  MULTIPLICATION BY A NONNEGATIVE REAL OVER A FINITE SUM OF EXTENDED REALS, AND THE RECIPROCAL SQUARE ROOT OF A POSITIVE
  EXTENDED REAL.

  On the extended reals multiplication does not distribute over addition in general (`⊤ + ⊥ = ⊥`), but it does when the
  factor is a nonnegative REAL number, whatever the terms are: `(a + b) * c = a * c + b * c` (`add_mul_of_nonneg`), hence
  over any finite sum (`sum_mul_of_nonneg`, and `zero_add_sum_mul_of_nonneg` for a sum accumulated from `0`). No term
  is asked to be finite. The ideal reciprocal square root of a positive extended real is such a factor: it is a
  nonnegative real number (`rsqrt_of_pos`: `⊤ ↦ 0`, a positive real `r ↦ (√r)⁻¹`).
-/
import Idealize.ShloMosaic.PureOps.Ideal
import Mathlib.Data.EReal.Operations

open scoped BigOperators

namespace Cert.Lib.NonnegScale

open Idealize.ShloMosaic

/-- Multiplication on the right by a nonnegative real distributes over a sum of two extended reals. -/
theorem add_mul_of_nonneg (a b : EReal) {c : ℝ} (hc : 0 ≤ c) :
    (a + b) * (c : EReal) = a * (c : EReal) + b * (c : EReal) :=
  EReal.right_distrib_of_nonneg_of_ne_top (EReal.coe_nonneg.2 hc) (EReal.coe_ne_top c) a b

/-- Multiplication on the right by a nonnegative real distributes over a finite sum of extended reals. -/
theorem sum_mul_of_nonneg {ι : Type*} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih => rw [Finset.sum_insert ha, Finset.sum_insert ha, add_mul_of_nonneg _ _ hc, ih]

/-- The same for a sum accumulated from `0`. -/
theorem zero_add_sum_mul_of_nonneg {ι : Type*} (s : Finset ι) (f : ι → EReal) {c : ℝ} (hc : 0 ≤ c) :
    (0 + ∑ j ∈ s, f j) * (c : EReal) = 0 + ∑ j ∈ s, f j * (c : EReal) := by
  rw [zero_add, zero_add, sum_mul_of_nonneg s f hc]

/-- The ideal reciprocal square root of a positive extended real is a nonnegative real number. -/
theorem rsqrt_of_pos {x : EReal} (hx : 0 < x) : ∃ r : ℝ, 0 ≤ r ∧ Ideal.rsqrt x = (r : EReal) := by
  induction x using EReal.rec with
  | bot => exact absurd hx (not_lt_bot)
  | top => exact ⟨0, le_refl 0, rfl⟩
  | coe r =>
    have hr : 0 < r := EReal.coe_pos.1 hx
    refine ⟨(Real.sqrt r)⁻¹, inv_nonneg.2 (Real.sqrt_nonneg r), ?_⟩
    show (if r < 0 then (⊥ : EReal) else if r = 0 then ⊤ else ((Real.sqrt r)⁻¹ : ℝ)) = _
    rw [if_neg (not_lt.2 hr.le), if_neg hr.ne']

end Cert.Lib.NonnegScale
-- ==== Proof.RefStages.lean ====
/-
  TWO STAGES OF THE REFERENCE PROGRAM, SAID AS MATHEMATICS.

  * The last stage is the row-wise log-softmax of the scores (`softmax_stage`). The program computes, for each of
    the 100000 rows, the greatest of its sixteen scores as a reduction with a maximum body started from the value of
    the word `0xFF800000`, takes the greater of that start value and the reduction, subtracts it from the row,
    and then subtracts the logarithm of the row's sum of exponentials. A reduction over one axis with a commutative and
    associative body is a fold over that axis's coordinates; the start value of a fold of `max` is below the fold, so
    the extra `max` with the start value changes nothing, and the result is the specification's `rowMax` without the
    word ever being evaluated (`rowMax_stage`). The sum starts from the word `0x00000000`, whose value is zero.
  * The inverse square-root degree — the reciprocal square root of the in-degree where the in-degree is above zero,
    zero elsewhere — is a nonnegative real number at every node, whatever the in-degree's value
    (`inv_sqrt_degree_nonneg`): where the comparison holds the reciprocal square root of a positive extended real is a
    nonnegative real, and elsewhere the value is zero.
-/
import proofs.«156736_j44598940402302_2_alg».proof.Proof.RefRead
import proofs.«156736_j44598940402302_2_alg».proof.Proof.GraphConv
import proofs.«156736_j44598940402302_2_alg».proof.Proof.LibNonnegScale
import Idealize.ShloMosaic.PureOps.Ideal.Laws
import Idealize.ShloMosaic.Lib.ValueIdx

noncomputable section

namespace Cert.ReferenceIdeal.Stages

open Cert.ReferenceIdeal Cert.ReferenceIdeal.Gen Cert.ReferenceIdeal.ReadP Idealize.ShloMosaic Idealize.ShloMosaic.ValueIdx
open scoped BigOperators

/-! ## The row maximum -/

/-- Row `n` of a `[100000, 16]` matrix with column `k` put back on the reduced axis. -/
theorem lift_row (h : S100000x16.Reduces [1] S100000) (n : Fin 100000) (k : Fin (S100000x16.size 1)) :
    h.lift (ix1 n) k = ix2 n (⟨k.val, k.isLt⟩ : Fin 16) := by
  funext c; apply Fin.ext
  match c with
  | ⟨0, _⟩ => rfl
  | ⟨1, _⟩ => rfl

/-- The greater of a start value and a fold of `max` from that start value is the fold: the start value is below it. -/
theorem maximumf_fold_max {ι : Type} (s : Finset ι) (b : Ideal .f32) (f : ι → Ideal .f32) :
    FloatOps.maximumf b (Finset.fold (max : EReal → EReal → EReal) b f s)
      = Finset.fold (max : EReal → EReal → EReal) b f s :=
  max_eq_right ((Finset.le_fold_max _).2 (Or.inl le_rfl))

/-- Dropping axis 1 of `[100000, 16]` leaves `[100000]`. -/
theorem reduces_row : S100000x16.Reduces [1] S100000 := by decide

/-- A reduction of the rows of a `[100000, 16]` matrix with a maximum body is, at row `n`, the fold of `max` from the
    initial value over the row's sixteen entries. -/
theorem reduce_max_row (z : S100000x16.Idx → Ideal .f32) (c : S_.Idx → Ideal .f32) (n : Fin 100000) :
    Host.reduce FloatOps.maximumf z c reducesTo_S100000x16_S100000_d1 h_S_ (ix1 n)
      = Finset.fold (max : EReal → EReal → EReal) (c (Shape.Idx.first h_S_)) (fun k : Fin 16 => z (ix2 n k))
          Finset.univ := by
  have e := Host.reduce_eq_fold_single (s := S100000x16) (t := S100000) (α := Ideal .f32)
    (FloatOps.maximumf : Ideal .f32 → Ideal .f32 → Ideal .f32) z c
    reducesTo_S100000x16_S100000_d1 reduces_row h_S_ (ix1 n)
  have hf : (z ∘ reduces_row.lift (ix1 n)) = fun k : Fin 16 => z (ix2 n k) :=
    funext fun k => congrArg z (lift_row reduces_row n k)
  rw [e, hf]
  rfl

/-- The reference's row maximum — the greater of the word `0xFF800000`'s value and the reduction of the scores' rows
    with a maximum body from that value — is the specification's `rowMax` of the scores. -/
theorem rowMax_stage (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S2x6400000, .i32⟩ : BufTy).Contents (Elt Ideal)) (n : Fin 100000) :
    val_main_call2_v2 (F := Ideal) x0 x1 x2 x3 x4 x5 (ix1 n)
      = Cert.GraphConv.rowMax (val_main_v63 (F := Ideal) x0 x1 x2 x3 x4 x5) n := by
  rw [val_main_call2_v2_apply, val_main_call2_v1_apply, val_main_call2_cst_0_apply]
  unfold val_main_call2_v0
  generalize val_main_v63 (F := Ideal) x0 x1 x2 x3 x4 x5 = z
  have e := reduce_max_row z (val_main_call2_cst (F := Ideal)) n
  rw [e, val_main_call2_cst_apply, maximumf_fold_max, Ideal.ofBits_def]
  rfl

/-! ## The log-softmax -/

/-- The shifted scores: each score minus its row's maximum. -/
theorem shifted_stage (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S2x6400000, .i32⟩ : BufTy).Contents (Elt Ideal)) (p : Fin 100000) (q : Fin 16) :
    val_main_call2_v5 (F := Ideal) x0 x1 x2 x3 x4 x5 (ix2 p q)
      = val_main_v63 (F := Ideal) x0 x1 x2 x3 x4 x5 (ix2 p q) - Cert.GraphConv.rowMax (val_main_v63 (F := Ideal) x0 x1 x2 x3 x4 x5) p := by
  have hi : idx_main_call2_v3 (idx_main_call2_v4 (ix2 p q)) = ix1 p :=
    funext fun a => Fin.ext (by match a with | ⟨0, _⟩ => rfl)
  rw [val_main_call2_v5_apply, val_main_call2_v4_apply, val_main_call2_v3_apply, hi, rowMax_stage]
  rfl

/-- The logarithm of the row's sum of exponentials of the shifted scores, as broadcast back to every column. -/
theorem logsum_stage (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S2x6400000, .i32⟩ : BufTy).Contents (Elt Ideal)) (p : Fin 100000) (q : Fin 16) :
    val_main_call2_v10 (F := Ideal) x0 x1 x2 x3 x4 x5 (ix2 p q)
      = Ideal.log (∑ k : Fin 16, Ideal.exp (val_main_v63 (F := Ideal) x0 x1 x2 x3 x4 x5 (ix2 p k) - Cert.GraphConv.rowMax (val_main_v63 (F := Ideal) x0 x1 x2 x3 x4 x5) p)) := by
  have hi : ∀ k : Fin 16,
      idx_main_call2_v7 (idx_main_call2_v8 (idx_main_call2_v10 (ix2 p q))) k = ix2 p k :=
    fun k => funext fun a => Fin.ext (by match a with | ⟨0, _⟩ => rfl | ⟨1, _⟩ => rfl)
  rw [val_main_call2_v10_apply, val_main_call2_v9_apply, val_main_call2_v8_apply, val_main_call2_v7_apply,
    val_main_call2_cst_1_apply, Ideal.ofBits_def, Ideal.ofBits_zero_f32, zero_add, Ideal.hostUnary_log_def]
  refine congrArg Ideal.log (Finset.sum_congr rfl fun k _ => ?_)
  rw [hi k, val_main_call2_v6_apply, shifted_stage, Ideal.hostUnary_exp_def]

/-- THE LAST STAGE of the reference is the row-wise log-softmax of its scores. -/
theorem softmax_stage (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S2x6400000, .i32⟩ : BufTy).Contents (Elt Ideal)) :
    Cert.ReferenceIdeal.ReadP.val_main_v64 (F := Ideal) x0 x1 x2 x3 x4 x5
      = Cert.GraphConv.logSoftmaxRows (Cert.ReferenceIdeal.ReadP.val_main_v63 (F := Ideal) x0 x1 x2 x3 x4 x5) := by
  funext i
  obtain ⟨p, q, rfl⟩ : ∃ p q, i = ix2 p q := ⟨i 0, i 1, eq_ix2 i⟩
  rw [val_main_v64_apply, shifted_stage, logsum_stage]
  generalize val_main_v63 (F := Ideal) x0 x1 x2 x3 x4 x5 = z
  rfl

/-! ## The inverse square-root degree -/

/-- A select between the ideal reciprocal square root of `d`, where `d` is above zero, and zero elsewhere is a
    nonnegative real number, whatever extended real `d` is. -/
theorem select_rsqrt_nonneg (d : EReal) :
    ∃ r : ℝ, 0 ≤ r ∧ Scalar.select (Ideal.cmp .ogt d 0) (Ideal.rsqrt d) (0 : EReal) = (r : EReal) := by
  by_cases h : (0 : EReal) < d
  · have hb : Ideal.cmp .ogt d 0 = 1#1 := by
      show BitVec.ofBool (decide ((0 : EReal) < d)) = 1#1
      rw [decide_eq_true h]; rfl
    rw [hb, select_one]
    exact Cert.Lib.NonnegScale.rsqrt_of_pos h
  · have hb : Ideal.cmp .ogt d 0 = 0#1 := by
      show BitVec.ofBool (decide ((0 : EReal) < d)) = 0#1
      rw [decide_eq_false h]; rfl
    rw [hb, select_zero]
    exact ⟨0, le_refl 0, EReal.coe_zero.symm⟩

/-- THE INVERSE SQUARE-ROOT DEGREE of the reference is a nonnegative real number at every node. -/
theorem inv_sqrt_degree_nonneg (x5 : (⟨S2x6400000, .i32⟩ : BufTy).Contents (Elt Ideal)) (n : S100000.Idx) :
    ∃ r : ℝ, 0 ≤ r ∧ Cert.ReferenceIdeal.ReadP.val_main_v14 (F := Ideal) x5 n = (r : EReal) := by
  rw [val_main_v14_apply, val_main_v12_apply, val_main_v13_apply, val_main_v11_apply, val_main_cst_1_apply,
    val_main_call0_v1_apply, val_main_call0_v0_apply, val_main_cst_2_apply, Ideal.cmpf_def, Ideal.ofBits_def,
    Ideal.ofBits_zero_f32, Ideal.hostUnary_rsqrt_def]
  exact select_rsqrt_nonneg _

end Cert.ReferenceIdeal.Stages

end
-- ==== Proof.LibEdgeRows.lean ====
/-
  GATHERS OF ROWS AND OF ENTRIES BY A COLUMN OF INDICES, AND WHERE A ROW SCATTER LANDS.

  Three host shape operations with a column `[E, 1]` of integer indices, each read at one index:
  * a gather of ROWS of a table `[N, C]` (`rowGather`): row `e` of the result is the table's row at the `e`-th index
    word, read signed and clamped into `[0, N − 1]`; the column is kept (`rowGather_apply`);
  * a gather of ENTRIES of a vector `[N]` (`entryGather`): entry `e` of the result is the vector's entry at the `e`-th
    index word, read signed and clamped into `[0, N − 1]` (`entryGather_apply`);
  * a scatter of the ROWS of updates `[E, C]` into a table `[N, C]` (`rowScatter`): an update entry `(e, q)` that lands
    at table entry `i` has the `e`-th index word, read signed, equal to `i`'s row, and keeps its column
    (`rowScatter_lands`); so the clamped index of the matching gather is `i`'s row as well (`rowScatter_lands_clamp`).
  The dimension numbers are structure literals over the sizes with the well-formedness proof a parameter, so a
  program's record with the same lists equals them by `rfl`.
  Last, two facts about how such a column of indices is prepared: the wrap of a negative index (add `m` where the
  index is below zero) leaves an index that is nonnegative read signed as it is (`wrap_apply_of_nonneg`), and a vector
  `[E]` broadcast to the column `[E, 1]` reads the vector's entry `e` at row `e` (`column_apply`).
-/
import Idealize.ShloMosaic.Lib.ValueIdx

namespace Cert.Lib.EdgeRows

open Idealize.ShloMosaic Idealize.ShloMosaic.ValueIdx

/-! ## A gather of rows -/

section RowGather
variable {α : Type}

/-- The dimension numbers of a gather of rows: operand `[N, C]`, start indices `[E, 1]`, result `[E, C]`; axis 0 of
    the operand is indexed and collapsed, axis 1 is taken whole as the result's axis 1. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row named by the `e`-th index word, read signed and clamped
    into `[0, N − 1]`, and at column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e (0 : Fin 1))).toInt.toNat (N - 1), by omega⟩ q) := by
  unfold Host.gather
  congr 1
  funext a
  refine Fin.ext ?_
  match a with
  | ⟨0, h0⟩ =>
    show (rowGather N E C wf).start (ix2 e q) idx ⟨0, h0⟩ + (rowGather N E C wf).batchCoord (ix2 e q) ⟨0, h0⟩
      + (rowGather N E C wf).offCoord (ix2 e q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E C wf).startIndexMap from List.mem_singleton.mpr rfl)]
    have hsi : (rowGather N E C wf).siIdx (ix2 e q) ⟨List.idxOf (⟨0, h0⟩ : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather N E C wf).start (ix2 e q) idx ⟨1, h1⟩ + (rowGather N E C wf).batchCoord (ix2 e q) ⟨1, h1⟩
      + (rowGather N E C wf).offCoord (ix2 e q) ⟨1, h1⟩ = q.val
    rw [GatherDims.batchCoord_eq_zero _ _ _ List.not_mem_nil]
    have hs : (rowGather N E C wf).start (ix2 e q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end RowGather

/-! ## A gather of entries -/

section EntryGather
variable {α : Type}

/-- The dimension numbers of a gather of entries: operand `[N]`, start indices `[E, 1]`, result `[E]`; the operand's
    one axis is indexed and collapsed. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the `e`-th index word, read signed and clamped into
    `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A scatter of rows -/

section RowScatter

/-- The dimension numbers of a scatter of rows: operand `[N, C]`, scatter indices `[E, 1]`, updates `[E, C]`; the
    index names the operand's axis 0, which the update window does not have, and the updates' axis 1 is the window
    over the operand's axis 1. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window starts at the `e`-th index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h0 : 0 < 2) :
    (rowScatter N E C wf).start (ix2 e q) idx ⟨0, h0⟩ = (idx (ix2 e (0 : Fin 1))).toInt := by
  unfold ScatterDims.start
  rw [dif_pos (show (⟨0, h0⟩ : Fin 2) ∈ (rowScatter N E C wf).scatterDimsToOperandDims from List.mem_singleton.mpr rfl)]
  have hsi : (rowScatter N E C wf).siIdx (ix2 e q)
      ⟨List.idxOf (⟨0, h0⟩ : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the window starts at 0. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h1 : 1 < 2) :
    (rowScatter N E C wf).start (ix2 e q) idx ⟨1, h1⟩ = 0 := by
  unfold ScatterDims.start
  rw [dif_neg (fun h => Nat.one_ne_zero (congrArg Fin.val (List.mem_singleton.mp h)))]

/-- The operand's axis 0 has no window coordinate. -/
theorem rowScatter_window_zero {N E C : Nat}
    (wf : ScatterDims.WF ⟨2, ![N, C]⟩ ⟨2, ![E, 1]⟩ ⟨2, ![E, C]⟩ [1] [0] [0] 1)
    (e : Fin E) (q : Fin C) (h0 : 0 < 2) :
    (rowScatter N E C wf).window (ix2 e q) ⟨0, h0⟩ = 0 := by
  have hn : (⟨0, h0⟩ : Fin 2) ∉ (rowScatter N E C wf).sKept :=
    fun h => of_decide_eq_true (List.mem_filter.1 h).2 (List.mem_singleton.mpr rfl)
  unfold ScatterDims.window
  rw [dif_neg hn]

/-- On the operand's axis 1 the window coordinate is the update's column. -/
theorem rowScatter_window_one {N E C : Nat}
    (wf : ScatterDims.WF ⟨2, ![N, C]⟩ ⟨2, ![E, 1]⟩ ⟨2, ![E, C]⟩ [1] [0] [0] 1)
    (e : Fin E) (q : Fin C) (h1 : 1 < 2) :
    (rowScatter N E C wf).window (ix2 e q) ⟨1, h1⟩ = q.val := by
  have hm : (⟨1, h1⟩ : Fin 2) ∈ (rowScatter N E C wf).sKept :=
    List.mem_filter.2 ⟨List.mem_finRange _,
      decide_eq_true (fun h => Nat.one_ne_zero (congrArg Fin.val (List.mem_singleton.mp h)))⟩
  unfold ScatterDims.window
  rw [dif_pos hm]
  rfl

/-- An update entry `(e, q)` that lands at operand entry `i` has the `e`-th index word, read signed, equal to `i`'s
    row, and keeps its column. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    (idx (ix2 e (0 : Fin 1))).toInt = ((i 0).val : Int) ∧ (i 1).val = q.val := by
  unfold ScatterDims.resultIdx? at h
  split at h
  · rename_i hb
    have hi := Option.some.inj h
    subst hi
    have h02 : 0 < 2 := Nat.zero_lt_two
    have h12 : 1 < 2 := Nat.one_lt_two
    constructor
    · have hb0 := (hb ⟨0, h02⟩).1
      show _ = (((rowScatter N E C wf).start (ix2 e q) idx ⟨0, h02⟩
        + ((rowScatter N E C wf).window (ix2 e q) ⟨0, h02⟩ : Nat) : Int).toNat : Int)
      rw [rowScatter_start_zero, rowScatter_window_zero] at hb0 ⊢
      omega
    · show ((rowScatter N E C wf).start (ix2 e q) idx ⟨1, h12⟩
        + ((rowScatter N E C wf).window (ix2 e q) ⟨1, h12⟩ : Nat) : Int).toNat = q.val
      rw [rowScatter_start_one, rowScatter_window_one]
      omega
  · exact absurd h (by simp)

/-- So the index word of a landing update, read signed and clamped into `[0, N − 1]` as the matching gather of rows
    reads it, is the row it lands at. -/
theorem rowScatter_lands_clamp {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    min (idx (ix2 e (0 : Fin 1))).toInt.toNat (N - 1) = (i 0).val := by
  have h0 := (rowScatter_lands wf idx e q i h).1
  have hlt : (i 0).val < N := idx2_lt0 i
  rw [h0]
  omega

end RowScatter

/-! ## The wrap of a negative index, at a nonnegative index; a vector of indices as a column -/

section Wrap

/-- A word that is nonnegative when read signed is not signed-less-than zero: the comparison's bit is `0`. -/
theorem cmpi_slt_zero_of_nonneg {w : Nat} (x : BitVec w) (h : 0 ≤ x.toInt) : IntOp.cmpi .slt x 0#w = 0#1 := by
  have hs : x.slt 0#w = false := by
    simp only [BitVec.slt, BitVec.toInt_zero, decide_eq_false_iff_not, not_lt]
    exact h
  show BitVec.ofBool (x.slt 0#w) = 0#1
  rw [hs]
  rfl

/-- The normalisation of a possibly negative index — where the index is signed-less-than a splat `0`, the index plus a
    splat `m`, elsewhere the index — is the index itself wherever the index is nonnegative read signed. -/
theorem wrap_apply_of_nonneg {s0 s : Shape} {w : Nat} (dims : Fin s0.rank → Fin s.rank) (hb : s0.BroadcastsInDim s dims)
    (m : BitVec w) (a : IVec s w) (k : s.Idx) (h : 0 ≤ (a k).toInt) :
    select (cmpi .slt a (broadcastInDim s dims hb (constantI s0 w 0#w)))
      (addi a (broadcastInDim s dims hb (constantI s0 w m))) a k = a k := by
  have hc : cmpi .slt a (broadcastInDim s dims hb (constantI s0 w 0#w)) k = 0#1 :=
    cmpi_slt_zero_of_nonneg (a k) h
  rw [select_apply, hc, select_zero]

/-- A vector `[E]` broadcast to the column `[E, 1]` along axis 0 reads, at row `e`, the vector's entry `e`. -/
theorem column_apply {α : Type} {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

end Wrap

end Cert.Lib.EdgeRows
-- ==== Proof.EdgeSums.lean ====
/-
  Summing neighbours' rows, then scaling: the law that joins the two programs.

  Let `d` give every node a nonnegative real. One program scales row `s` of a matrix `h` by `d s`, adds up at each
  node `n` the scaled rows of the edges that point at `n`, and scales the total by `d n`. The other adds up the rows
  themselves, each weighted by `d (source) · d (target)`. They agree entry by entry on the extended reals, whatever the
  entries of `h` are: an edge's update lands at row `n` exactly when its target index, read signed, is `n`, so its
  target's weight is `d n`; and multiplication by a nonnegative real distributes over a finite sum of extended reals
  (no infinity can change sign).
-/
import Idealize.ShloMosaic.PureOps.Ideal
import Idealize.ShloMosaic.Lib.ValueIdx
import proofs.«156736_j44598940402302_2_alg».proof.Proof.LibEdgeRows
import proofs.«156736_j44598940402302_2_alg».proof.Proof.LibNonnegScale

noncomputable section

namespace Cert.GraphConv

open Idealize.ShloMosaic Idealize.ShloMosaic.ValueIdx Cert.Lib.EdgeRows Cert.Lib.NonnegScale

variable {N E C : Nat}

/-- Rows gathered by source and scaled by `d` at the source, summed by target, the sum scaled by `d` at the target:
    the same as the rows gathered by source, weighted by `d (source) · d (target)`, summed by target. `dst` is the
    column of target indices the sum is taken by; `srcw`, `dstw` are the columns the gathers read, `dstw` agreeing
    with `dst` wherever `dst` is not negative (a negative index lands nowhere). -/
theorem edge_sum_scaled (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (dst srcw dstw : IVec ⟨2, ![E, 1]⟩ 32)
    (hwrap : ∀ e : Fin E, 0 ≤ (dst (ix2 e (0 : Fin 1))).toInt → dstw (ix2 e (0 : Fin 1)) = dst (ix2 e (0 : Fin 1)))
    (d : (⟨1, ![N]⟩ : Shape).Idx → EReal) (hd : ∀ n, ∃ r : ℝ, 0 ≤ r ∧ d n = (r : EReal))
    (h : (⟨2, ![N, C]⟩ : Shape).Idx → EReal) (x0 : (⟨2, ![N, C]⟩ : Shape).Idx → EReal) (hx0 : ∀ i, x0 i = 0)
    (n : Fin N) (q : Fin C) :
    Ideal.hostScatterAdd (rowScatter N E C wfS) x0 dst
        (Host.gather (rowGather N E C wfG) (fun i' => h i' * d (ix1 (i' 0))) srcw) (ix2 n q) * d (ix1 n)
      = Ideal.hostScatterAdd (rowScatter N E C wfS) x0 dst
        (fun j => Host.gather (rowGather N E C wfG) h srcw j
          * (Host.gather (entryGather N E wfE) d srcw (ix1 (j 0)) * Host.gather (entryGather N E wfE) d dstw (ix1 (j 0))))
        (ix2 n q) := by
  obtain ⟨r, hr, hdn⟩ := hd (ix1 n)
  unfold Ideal.hostScatterAdd
  rw [hx0, hdn, zero_add_sum_mul_of_nonneg _ _ hr]
  refine congrArg (fun s => (0 : EReal) + s) (Finset.sum_congr rfl fun j hj => ?_)
  have hj' := (Finset.mem_filter.mp hj).2
  obtain ⟨e, p, rfl⟩ : ∃ (e : Fin E) (p : Fin C), j = ix2 e p := ⟨j 0, j 1, eq_ix2 j⟩
  have hl := rowScatter_lands wfS dst e p (ix2 n q) hj'
  have hc := rowScatter_lands_clamp wfS dst e p (ix2 n q) hj'
  have h0 : 0 ≤ (dst (ix2 e (0 : Fin 1))).toInt := by rw [hl.1]; exact Int.natCast_nonneg _
  have hw := hwrap e h0
  have hdt : d (ix1 ⟨min (dstw (ix2 e (0 : Fin 1))).toInt.toNat (N - 1), by omega⟩) = (r : EReal) := by
    have htgt : (⟨min (dstw (ix2 e (0 : Fin 1))).toInt.toNat (N - 1), by omega⟩ : Fin N) = n :=
      Fin.ext ((congrArg (fun w : BitVec 32 => min w.toInt.toNat (N - 1)) hw).trans hc)
    rw [htgt, hdn]
  have gs : Host.gather (rowGather N E C wfG) (fun i' => h i' * d (ix1 (i' 0))) srcw (ix2 e p)
      = h (ix2 ⟨min (srcw (ix2 e (0 : Fin 1))).toInt.toNat (N - 1), by omega⟩ p)
        * d (ix1 ⟨min (srcw (ix2 e (0 : Fin 1))).toInt.toNat (N - 1), by omega⟩) :=
    rowGather_apply hN wfG _ srcw e p
  show Host.gather (rowGather N E C wfG) (fun i' => h i' * d (ix1 (i' 0))) srcw (ix2 e p) * (r : EReal)
      = Host.gather (rowGather N E C wfG) h srcw (ix2 e p)
        * (Host.gather (entryGather N E wfE) d srcw (ix1 e) * Host.gather (entryGather N E wfE) d dstw (ix1 e))
  rw [gs, rowGather_apply hN wfG h srcw e p, entryGather_apply hN wfE d srcw e, entryGather_apply hN wfE d dstw e, hdt]
  exact mul_assoc _ _ _

end Cert.GraphConv

end
-- ==== Proof.RefRound.lean ====
/-
  One round of the reference's neighbour sum, in the terms the reference prints.

  The reference gathers the rows of a matrix by the edges' sources, weights each gathered row by
  d(source) · d(target), and adds the weighted rows up at the edges' targets. Scaling the rows by d before the
  gather and the sums by d afterwards gives the same array: the weight d(target) of an edge that lands at node n is
  d(n), and a nonnegative real factor distributes over the sum.
-/
import proofs.«156736_j44598940402302_2_alg».proof.Proof.RefRead
import proofs.«156736_j44598940402302_2_alg».proof.Proof.EdgeSums
import proofs.«156736_j44598940402302_2_alg».proof.Proof.LibEdgeRows
import Idealize.ShloMosaic.PureOps.Ideal.Laws
import Idealize.ShloMosaic.Lib.ValueIdx
import Idealize.ShloMosaic.Lib.Pipeline.Value

noncomputable section

namespace Cert.ReferenceIdeal.Round

open Cert.ReferenceIdeal Idealize.ShloMosaic Idealize.ShloMosaic.ValueIdx Cert.Lib.EdgeRows

/-- The accumulator the sum starts from is zero everywhere. -/
theorem zeros_apply (i : S100000x16.Idx) : ReadP.val_main_v41 (F := Ideal) i = 0 := by
  rw [ReadP.val_main_v41_apply, ReadP.val_main_cst_8_apply]
  exact Ideal.ofBits_zero_f32

/-- The wrapped target column agrees with the raw one wherever the raw index is not negative. -/
theorem wrapped_target_eq (x5 : (⟨S2x6400000, .i32⟩ : BufTy).Contents (Elt Ideal)) (e : Fin 6500000)
    (he : 0 ≤ (ReadP.val_main_v42 (F := Ideal) x5 (ix2 e (0 : Fin 1))).toInt) :
    ReadP.val_main_v27 (F := Ideal) x5 (ix2 e (0 : Fin 1)) = ReadP.val_main_v42 (F := Ideal) x5 (ix2 e (0 : Fin 1)) := by
  rw [ReadP.val_main_v42_apply] at he ⊢
  rw [ReadP.val_main_v27_apply]
  exact wrap_apply_of_nonneg (s0 := S_) (s := S6500000) (![] : Fin S_.rank → Fin S6500000.rank) Gen.bcast_S_S6500000 100000#32
    (ReadP.val_main_v6 (F := Ideal) x5) _ he

/-- The printed gather of entries is the gather of entries by a column of indices. -/
theorem entry_gather_eq : gather_S100000_S6500000x1_S6500000_n_0_n_n_0_1_1
    = entryGather 100000 6500000 Gen.gather_S100000_S6500000x1_S6500000_n_0_n_n_0_1_1_wf := rfl

/-- The source column is printed twice: the two terms are one. -/
theorem source_column_eq (x5 : (⟨S2x6400000, .i32⟩ : BufTy).Contents (Elt Ideal)) :
    ReadP.val_main_v20 (F := Ideal) x5 = ReadP.val_main_v37 (F := Ideal) x5 := rfl

/-- The weight of edge `e`, at any column: d at the wrapped source times d at the wrapped target. -/
theorem weight_apply (x5 : (⟨S2x6400000, .i32⟩ : BufTy).Contents (Elt Ideal)) (e : Fin 6500000) (p : Fin 16) :
    ReadP.val_main_v39 (F := Ideal) x5 (ix2 e p)
      = Host.gather (entryGather 100000 6500000 Gen.gather_S100000_S6500000x1_S6500000_n_0_n_n_0_1_1_wf)
            (ReadP.val_main_v14 (F := Ideal) x5) (ReadP.val_main_v37 (F := Ideal) x5) (ix1 e)
          * Host.gather (entryGather 100000 6500000 Gen.gather_S100000_S6500000x1_S6500000_n_0_n_n_0_1_1_wf)
            (ReadP.val_main_v14 (F := Ideal) x5) (ReadP.val_main_v27 (F := Ideal) x5) (ix1 e) := by
  rw [ReadP.val_main_v39_apply, ReadP.val_main_v30_apply, ReadP.val_main_v29_apply]
  have hI : ReadP.idx_main_v30 (ReadP.idx_main_v39 (ix2 e p)) = ix1 e :=
    funext fun a => Fin.ext (by match a with | ⟨0, _⟩ => rfl)
  rw [hI]
  unfold ReadP.val_main_v21 ReadP.val_main_v28
  rw [entry_gather_eq, source_column_eq]
  rfl

/-- The printed scatter of rows is the scatter of rows by a column of indices. -/
theorem row_scatter_eq : scatter_S100000x16_S6500000x1_S6500000x16_1_0_0_1
    = rowScatter 100000 6500000 16 Gen.scatter_S100000x16_S6500000x1_S6500000x16_1_0_0_1_wf := rfl

/-- The printed gather of rows is the gather of rows by a column of indices. -/
theorem row_gather_eq : gather_S100000x16_S6500000x1_S6500000x16_1_0_n_n_0_1_116
    = rowGather 100000 6500000 16 Gen.gather_S100000x16_S6500000x1_S6500000x16_1_0_n_n_0_1_116_wf := rfl

/-- The law of the neighbour sum, for any column of weights that is, edge by edge, d at the source times d at the
    target: scaling the rows by d before the gather and the sums by d afterwards is the weighted neighbour sum. -/
theorem weighted_sum_of_weights {N E C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (dst srcw dstw : IVec ⟨2, ![E, 1]⟩ 32)
    (hwrap : ∀ e : Fin E, 0 ≤ (dst (ix2 e (0 : Fin 1))).toInt → dstw (ix2 e (0 : Fin 1)) = dst (ix2 e (0 : Fin 1)))
    (d : (⟨1, ![N]⟩ : Shape).Idx → EReal) (hd : ∀ n, ∃ r : ℝ, 0 ≤ r ∧ d n = (r : EReal))
    (h : (⟨2, ![N, C]⟩ : Shape).Idx → EReal) (x0 : (⟨2, ![N, C]⟩ : Shape).Idx → EReal) (hx0 : ∀ i, x0 i = 0)
    (wgt : (⟨2, ![E, C]⟩ : Shape).Idx → EReal)
    (hw : ∀ (e : Fin E) (p : Fin C), wgt (ix2 e p)
      = Host.gather (entryGather N E wfE) d srcw (ix1 e) * Host.gather (entryGather N E wfE) d dstw (ix1 e))
    (n : Fin N) (q : Fin C) :
    Host.scatterAdd (F := Ideal) (φ := .f32) (rowScatter N E C wfS) x0 dst
        (Host.gather (rowGather N E C wfG) (fun i' => h i' * d (ix1 (i' 0))) srcw) (ix2 n q) * d (ix1 n)
      = Host.scatterAdd (F := Ideal) (φ := .f32) (rowScatter N E C wfS) x0 dst
        (mulf (Host.gather (rowGather N E C wfG) h srcw) wgt) (ix2 n q) := by
  refine (Cert.GraphConv.edge_sum_scaled hN wfS wfG wfE dst srcw dstw hwrap d hd h x0 hx0 n q).trans ?_
  refine congrArg (fun u => Ideal.hostScatterAdd (rowScatter N E C wfS) x0 dst u (ix2 n q)) (funext fun j => ?_)
  obtain ⟨e, p, rfl⟩ : ∃ (e : Fin E) (p : Fin C), j = ix2 e p := ⟨j 0, j 1, eq_ix2 j⟩
  exact congrArg (fun t => Host.gather (rowGather N E C wfG) h srcw (ix2 e p) * t) (hw e p).symm

/-- The reference's neighbour sum of the rows scaled by d at the source, scaled by d at the target, is its neighbour
    sum of the rows weighted by d(source) · d(target). -/
theorem weighted_sum_eq (x5 : (⟨S2x6400000, .i32⟩ : BufTy).Contents (Elt Ideal))
    (hd : ∀ n : S100000.Idx, ∃ r : ℝ, 0 ≤ r ∧ ReadP.val_main_v14 (F := Ideal) x5 n = (r : EReal))
    (h : S100000x16.Idx → EReal) (n : Fin 100000) (q : Fin 16) :
    Host.scatterAdd (F := Ideal) (φ := .f32) scatter_S100000x16_S6500000x1_S6500000x16_1_0_0_1
        (ReadP.val_main_v41 (F := Ideal)) (ReadP.val_main_v42 (F := Ideal) x5)
        (Host.gather gather_S100000x16_S6500000x1_S6500000x16_1_0_n_n_0_1_116
          (fun i' => h i' * ReadP.val_main_v14 (F := Ideal) x5 (ix1 (i' 0))) (ReadP.val_main_v37 (F := Ideal) x5)) (ix2 n q)
      * ReadP.val_main_v14 (F := Ideal) x5 (ix1 n)
    = Host.scatterAdd (F := Ideal) (φ := .f32) scatter_S100000x16_S6500000x1_S6500000x16_1_0_0_1
        (ReadP.val_main_v41 (F := Ideal)) (ReadP.val_main_v42 (F := Ideal) x5)
        (mulf (Host.gather gather_S100000x16_S6500000x1_S6500000x16_1_0_n_n_0_1_116 h (ReadP.val_main_v37 (F := Ideal) x5))
          (ReadP.val_main_v39 (F := Ideal) x5)) (ix2 n q) := by
  rw [row_scatter_eq, row_gather_eq]
  exact weighted_sum_of_weights (N := 100000) (E := 6500000) (C := 16) (by omega)
    Gen.scatter_S100000x16_S6500000x1_S6500000x16_1_0_0_1_wf
    Gen.gather_S100000x16_S6500000x1_S6500000x16_1_0_n_n_0_1_116_wf
    Gen.gather_S100000_S6500000x1_S6500000_n_0_n_n_0_1_1_wf
    (ReadP.val_main_v42 (F := Ideal) x5) (ReadP.val_main_v37 (F := Ideal) x5) (ReadP.val_main_v27 (F := Ideal) x5)
    (wrapped_target_eq x5) (ReadP.val_main_v14 (F := Ideal) x5) hd h (ReadP.val_main_v41 (F := Ideal)) zeros_apply
    (ReadP.val_main_v39 (F := Ideal) x5) (weight_apply x5) n q

end Cert.ReferenceIdeal.Round

end
-- ==== Proof.RefDense.lean ====
/-
  The dense stages of the plain reference, read at an index.  The reference does two rounds of graph convolution:
  a product with a weight matrix, then at each node the sum of its in-neighbours' rows, each weighted.  Here each
  dense step is read entry by entry — the first product x·w, the second product max (s + b) 0 · w' of the first
  round's sums s, and the final scores s' + b' of the second round's sums s' — and each round's sum over neighbours
  is named as one scatter-add of gathered, weighted rows, the two rounds with the same index columns and weights.
-/
import proofs.«156736_j44598940402302_2_alg».proof.Proof.RefRead
import Idealize.ShloMosaic.PureOps.Ideal.Laws
import Idealize.ShloMosaic.Lib.ValueIdx
import Idealize.ShloMosaic.Lib.Pipeline.Value

noncomputable section

namespace Cert.ReferenceIdeal.Dense

open Cert.ReferenceIdeal Cert.ReferenceIdeal.Gen Idealize.ShloMosaic Idealize.ShloMosaic.TcCoe Idealize.ShloMosaic.ValueIdx
  Idealize.SL.Sem Idealize.ShloMosaic.StableHlo

/-- The first product at (n, q): ∑ₖ x(n,k) · w(k,q). -/
theorem first_product (x0 : (⟨S100000x512, .f32⟩ : BufTy).Contents (Elt Ideal))
    (x1 : (⟨S512x16, .f32⟩ : BufTy).Contents (Elt Ideal)) (n : Fin 100000) (q : Fin 16) :
    ReadP.val_main_v31 (F := Ideal) x0 x1 (ix2 n q) = ∑ k : Fin 512, x0 (ix2 n k) * x1 (ix2 k q) := by
  rw [ReadP.val_main_v31_apply]
  refine Finset.sum_congr rfl fun k _ => ?_
  have el : ReadP.lidx_main_v31 (ix2 n q) k = ix2 n k :=
    funext fun a => Fin.ext (by match a with | ⟨0, _⟩ => rfl | ⟨1, _⟩ => rfl)
  have er : ReadP.ridx_main_v31 (ix2 n q) k = ix2 k q :=
    funext fun a => Fin.ext (by match a with | ⟨0, _⟩ => rfl | ⟨1, _⟩ => rfl)
  rw [el, er]

/-- The second product at (n, q): with s the first round's sums and b the first bias,
    ∑ₖ max (s(n,k) + b(k)) 0 · w'(k,q). -/
theorem hidden_product (x0 : (⟨S100000x512, .f32⟩ : BufTy).Contents (Elt Ideal))
    (x1 : (⟨S512x16, .f32⟩ : BufTy).Contents (Elt Ideal)) (x2 : (⟨S16, .f32⟩ : BufTy).Contents (Elt Ideal))
    (x3 : (⟨S16x16, .f32⟩ : BufTy).Contents (Elt Ideal)) (x5 : (⟨S2x6400000, .i32⟩ : BufTy).Contents (Elt Ideal))
    (n : Fin 100000) (q : Fin 16) :
    ReadP.val_main_v48 (F := Ideal) x0 x1 x2 x3 x5 (ix2 n q)
      = ∑ k : Fin 16, max (ReadP.val_main_v43 (F := Ideal) x0 x1 x5 (ix2 n k) + x2 (ix1 k)) 0 * x3 (ix2 k q) := by
  rw [ReadP.val_main_v48_apply]
  refine Finset.sum_congr rfl fun k _ => ?_
  have el : ReadP.lidx_main_v48 (ix2 n q) k = ix2 n k :=
    funext fun a => Fin.ext (by match a with | ⟨0, _⟩ => rfl | ⟨1, _⟩ => rfl)
  have er : ReadP.ridx_main_v48 (ix2 n q) k = ix2 k q :=
    funext fun a => Fin.ext (by match a with | ⟨0, _⟩ => rfl | ⟨1, _⟩ => rfl)
  have eb : ReadP.idx_main_v44 (ReadP.idx_main_v45 (ix2 n k)) = ix1 k :=
    funext fun a => Fin.ext (by match a with | ⟨0, _⟩ => rfl)
  rw [el, er, ReadP.val_main_v47_apply, ReadP.val_main_v46_apply, ReadP.val_main_call1_v0_apply,
    ReadP.val_main_call1_cst_apply, ReadP.val_main_v45_apply, ReadP.val_main_v44_apply, eb]
  show max (_ + _) (Ideal.ofBits .f32 0x00000000#32) * _ = _
  rw [Ideal.ofBits_zero_f32]

/-- The final scores at (n, q): the second round's sums plus the second bias, s'(n,q) + b'(q). -/
theorem final_scores (x0 : (⟨S100000x512, .f32⟩ : BufTy).Contents (Elt Ideal))
    (x1 : (⟨S512x16, .f32⟩ : BufTy).Contents (Elt Ideal)) (x2 : (⟨S16, .f32⟩ : BufTy).Contents (Elt Ideal))
    (x3 : (⟨S16x16, .f32⟩ : BufTy).Contents (Elt Ideal)) (x4 : (⟨S16, .f32⟩ : BufTy).Contents (Elt Ideal))
    (x5 : (⟨S2x6400000, .i32⟩ : BufTy).Contents (Elt Ideal)) (n : Fin 100000) (q : Fin 16) :
    ReadP.val_main_v63 (F := Ideal) x0 x1 x2 x3 x4 x5 (ix2 n q)
      = ReadP.val_main_v60 (F := Ideal) x0 x1 x2 x3 x5 (ix2 n q) + x4 (ix1 q) := by
  have eb : ReadP.idx_main_v61 (ReadP.idx_main_v62 (ix2 n q)) = ix1 q :=
    funext fun a => Fin.ext (by match a with | ⟨0, _⟩ => rfl)
  rw [ReadP.val_main_v63_apply, ReadP.val_main_v62_apply, ReadP.val_main_v61_apply, eb]
  rfl

/-- The first round's sums: the rows of the first product gathered at the edges' source column, each weighted, and
    added into zeros at the edges' target column. -/
theorem first_sum_def (x0 : (⟨S100000x512, .f32⟩ : BufTy).Contents (Elt Ideal))
    (x1 : (⟨S512x16, .f32⟩ : BufTy).Contents (Elt Ideal)) (x5 : (⟨S2x6400000, .i32⟩ : BufTy).Contents (Elt Ideal)) :
    ReadP.val_main_v43 (F := Ideal) x0 x1 x5
      = Host.scatterAdd (F := Ideal) (φ := .f32) scatter_S100000x16_S6500000x1_S6500000x16_1_0_0_1 (ReadP.val_main_v41 (F := Ideal))
          (ReadP.val_main_v42 (F := Ideal) x5)
          (mulf (F := Ideal) (φ := .f32) (Host.gather gather_S100000x16_S6500000x1_S6500000x16_1_0_n_n_0_1_116
              (ReadP.val_main_v31 (F := Ideal) x0 x1) (ReadP.val_main_v37 (F := Ideal) x5))
            (ReadP.val_main_v39 (F := Ideal) x5)) := rfl

/-- The second round's sums: the same, of the rows of the second product — the same zeros, columns and weights. -/
theorem second_sum_def (x0 : (⟨S100000x512, .f32⟩ : BufTy).Contents (Elt Ideal))
    (x1 : (⟨S512x16, .f32⟩ : BufTy).Contents (Elt Ideal)) (x2 : (⟨S16, .f32⟩ : BufTy).Contents (Elt Ideal))
    (x3 : (⟨S16x16, .f32⟩ : BufTy).Contents (Elt Ideal)) (x5 : (⟨S2x6400000, .i32⟩ : BufTy).Contents (Elt Ideal)) :
    ReadP.val_main_v60 (F := Ideal) x0 x1 x2 x3 x5
      = Host.scatterAdd (F := Ideal) (φ := .f32) scatter_S100000x16_S6500000x1_S6500000x16_1_0_0_1 (ReadP.val_main_v41 (F := Ideal))
          (ReadP.val_main_v42 (F := Ideal) x5)
          (mulf (F := Ideal) (φ := .f32) (Host.gather gather_S100000x16_S6500000x1_S6500000x16_1_0_n_n_0_1_116
              (ReadP.val_main_v48 (F := Ideal) x0 x1 x2 x3 x5) (ReadP.val_main_v37 (F := Ideal) x5))
            (ReadP.val_main_v39 (F := Ideal) x5)) := rfl

end Cert.ReferenceIdeal.Dense

end
-- ==== Proof.Bridge.lean ====
/-
  The two programs compute one function.

  Write `f n` for node `n`'s factor (the inverse square root of its in-degree, or zero), `Σ` for "gather rows by source,
  add them up by target". The kernel forms `Σ (H · f) · f` where the reference forms the sum of the rows of `H` weighted
  by `f (source) · f (target)`; the two agree because `f n` is a nonnegative real (the weighted-sum law). Used once
  with `H = x·W₁` and once with `H = max (· + b₁) 0 · W₂` of the first round's result, this brings the kernel's scores,
  row by row, to the reference's; both then take the same row-wise log-softmax.
-/
import proofs.«156736_j44598940402302_2_alg».proof.Proof.KernelValue
import proofs.«156736_j44598940402302_2_alg».proof.Proof.RefStages
import proofs.«156736_j44598940402302_2_alg».proof.Proof.RefRound
import proofs.«156736_j44598940402302_2_alg».proof.Proof.RefDense
import proofs.«156736_j44598940402302_2_alg».proof.Proof.LibLayout
import Idealize.ShloMosaic.Lib.ValueLayout

set_option maxRecDepth 16384

noncomputable section

namespace Cert.Agreement

open Idealize.ShloMosaic Idealize.ShloMosaic.ValueIdx Cert.GraphConv Cert.KernelIdeal.Boundary
open Cert.ReferenceIdeal (S100000x512 S512x16 S16 S16x16 S2x6400000 S100000x16 S100000 S1x16)

/-- The factor column at node `n` is the factor vector at `n`. -/
theorem factor_apply (ei : (⟨S2x6400000, .i32⟩ : BufTy).Contents (Elt Ideal)) (n : Fin 100000) (u : Fin 1) :
    factorColumn ei (ix2 n u) = Cert.ReferenceIdeal.ReadP.val_main_v14 (F := Ideal) ei (ix1 n) := by
  unfold factorColumn
  exact Cert.LibLayout.shapeCast_a_a1_apply _ _ n u

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x3 : (⟨S16x16, .f32⟩ : BufTy).Contents (Elt Ideal))
  (x4 : (⟨S16, .f32⟩ : BufTy).Contents (Elt Ideal)) (x5 : (⟨S2x6400000, .i32⟩ : BufTy).Contents (Elt Ideal))

/-- First round: the kernel's summed scaled rows, scaled at the target, are the reference's weighted sum of the rows
    of `x·W₁`. -/
theorem first_round (n : Fin 100000) (k : Fin 16) :
    neighbourSum x5 (scaledProduct x0 x1 (factorColumn x5)) (ix2 n k) * Cert.ReferenceIdeal.ReadP.val_main_v14 (F := Ideal) x5 (ix1 n)
      = Cert.ReferenceIdeal.ReadP.val_main_v43 (F := Ideal) x0 x1 x5 (ix2 n k) := by
  have hd := Cert.ReferenceIdeal.Stages.inv_sqrt_degree_nonneg x5
  have hrows : scaledProduct x0 x1 (factorColumn x5)
      = fun i' => Cert.ReferenceIdeal.ReadP.val_main_v31 (F := Ideal) x0 x1 i' * Cert.ReferenceIdeal.ReadP.val_main_v14 (F := Ideal) x5 (ix1 (i' 0)) := by
    funext i'
    obtain ⟨a, b, rfl⟩ : ∃ (a : Fin 100000) (b : Fin 16), i' = ix2 a b := ⟨i' 0, i' 1, eq_ix2 i'⟩
    rw [Cert.ReferenceIdeal.Dense.first_product]
    show (∑ k : Fin 512, x0 (ix2 a k) * x1 (ix2 k b)) * factorColumn x5 (ix2 a (0 : Fin 1)) = _
    rw [factor_apply]
  rw [Cert.ReferenceIdeal.Dense.first_sum_def, hrows]
  unfold neighbourSum
  exact Cert.ReferenceIdeal.Round.weighted_sum_eq x5 hd _ n k

/-- The second dense stage's rows are the reference's hidden product, each row scaled by its node's factor. -/
theorem hidden_rows :
    hiddenScaled (neighbourSum x5 (scaledProduct x0 x1 (factorColumn x5))) (factorColumn x5)
        (shapeCast Cert.KernelIdeal.S1x16 x2 Cert.KernelIdeal.Gen.shapeCasts_S16_S1x16) x3
      = fun i' => Cert.ReferenceIdeal.ReadP.val_main_v48 (F := Ideal) x0 x1 x2 x3 x5 i' * Cert.ReferenceIdeal.ReadP.val_main_v14 (F := Ideal) x5 (ix1 (i' 0)) := by
  funext i'
  obtain ⟨a, b, rfl⟩ : ∃ (a : Fin 100000) (b : Fin 16), i' = ix2 a b := ⟨i' 0, i' 1, eq_ix2 i'⟩
  rw [Cert.ReferenceIdeal.Dense.hidden_product]
  show (∑ k : Fin 16, max (neighbourSum x5 (scaledProduct x0 x1 (factorColumn x5)) (ix2 a k) * factorColumn x5 (ix2 a (0 : Fin 1))
      + shapeCast Cert.KernelIdeal.S1x16 x2 Cert.KernelIdeal.Gen.shapeCasts_S16_S1x16 (ix2 (0 : Fin 1) k)) 0 * x3 (ix2 k b))
      * factorColumn x5 (ix2 a (0 : Fin 1)) = _
  rw [factor_apply]
  refine congrArg (fun s : EReal => s * Cert.ReferenceIdeal.ReadP.val_main_v14 (F := Ideal) x5 (ix1 a)) (Finset.sum_congr rfl fun k _ => ?_)
  rw [first_round x0 x1 x5 a k, shapeCast_a_1a_apply]

/-- The kernel's value of the arguments is the reference's last stage of the same arguments. -/
theorem value_eq :
    Cert.KernelIdeal.Whole.value x0 x1 x2 x3 x4 x5 = Cert.ReferenceIdeal.ReadP.val_main_v64 (F := Ideal) x0 x1 x2 x3 x4 x5 := by
  have hd := Cert.ReferenceIdeal.Stages.inv_sqrt_degree_nonneg x5
  rw [Cert.ReferenceIdeal.Stages.softmax_stage]
  unfold Cert.KernelIdeal.Whole.value classLogProbs
  refine congrArg logSoftmaxRows (funext fun i => ?_)
  obtain ⟨n, q, rfl⟩ : ∃ (n : Fin 100000) (q : Fin 16), i = ix2 n q := ⟨i 0, i 1, eq_ix2 i⟩
  rw [Cert.ReferenceIdeal.Dense.final_scores, Cert.ReferenceIdeal.Dense.second_sum_def]
  show neighbourSum x5 (hiddenScaled (neighbourSum x5 (scaledProduct x0 x1 (factorColumn x5))) (factorColumn x5)
        (shapeCast Cert.KernelIdeal.S1x16 x2 Cert.KernelIdeal.Gen.shapeCasts_S16_S1x16) x3) (ix2 n q)
        * factorColumn x5 (ix2 n (0 : Fin 1))
      + shapeCast Cert.KernelIdeal.S1x16 x4 Cert.KernelIdeal.Gen.shapeCasts_S16_S1x16 (ix2 (0 : Fin 1) q) = _
  rw [hidden_rows, factor_apply, shapeCast_a_1a_apply]
  unfold neighbourSum
  rw [Cert.ReferenceIdeal.Round.weighted_sum_eq x5 hd (Cert.ReferenceIdeal.ReadP.val_main_v48 (F := Ideal) x0 x1 x2 x3 x5) n q]

end Cert.Agreement

end
-- ==== Proof.lean ====
/-
  A two-layer graph convolution with a row-wise log-softmax, computed two ways, is one function on the extended reals.

  Both programs build, from the edge list with one self-loop per node, the in-degree of every node and its factor
  `f n` — the inverse square root of the degree where it is positive, zero elsewhere. The reference multiplies the
  features by the first weights, gathers the rows by source, weights row `e` by `f (source e) · f (target e)`, adds the
  rows up by target, adds a bias, cuts at zero, and repeats with the second weights before the row-wise log-softmax.
  The kernel folds the weights into three dense stages tiled over the nodes: it scales row `n` by `f n` before the
  gather and again after the sum. The two agree entry by entry because an update lands on row `n` only when its target
  is `n`, and multiplication by the nonnegative real `f n` distributes over a finite sum of extended reals whatever the
  summands are — so no finiteness of the inputs is used. The matrix products and the row reductions are the same sums
  in both programs, the changes of float format are the identity, and every literal is the same word on both sides.

  The frames of the two kernel programs are the generated ones; the reference's is its run with the result dropped;
  nothing was rewritten by the idealization, so there is nothing to preserve.
-/
import proofs.«156736_j44598940402302_2_alg».proof.Defs
import proofs.«156736_j44598940402302_2_alg».proof.Proof.Gen.Kernel
import proofs.«156736_j44598940402302_2_alg».proof.Proof.Gen.Kernel.Skeleton
import proofs.«156736_j44598940402302_2_alg».proof.Proof.Gen.Kernel.Launch
import proofs.«156736_j44598940402302_2_alg».proof.Proof.Gen.Kernel.Points
import proofs.«156736_j44598940402302_2_alg».proof.Proof.Gen.Kernel.Frame
import proofs.«156736_j44598940402302_2_alg».proof.Proof.Gen.KernelIdeal
import proofs.«156736_j44598940402302_2_alg».proof.Proof.Gen.KernelIdeal.Skeleton
import proofs.«156736_j44598940402302_2_alg».proof.Proof.Gen.KernelIdeal.Launch
import proofs.«156736_j44598940402302_2_alg».proof.Proof.Gen.KernelIdeal.Points
import proofs.«156736_j44598940402302_2_alg».proof.Proof.Gen.KernelIdeal.Frame
import proofs.«156736_j44598940402302_2_alg».proof.Proof.Gen.ReferenceIdeal
import proofs.«156736_j44598940402302_2_alg».proof.Proof.Gen.Pre_finite_inputs
import proofs.«156736_j44598940402302_2_alg».proof.Proof.RefRun
import proofs.«156736_j44598940402302_2_alg».proof.Proof.RefRead
import proofs.«156736_j44598940402302_2_alg».proof.Proof.KernelRun
import proofs.«156736_j44598940402302_2_alg».proof.Proof.KernelValue
import proofs.«156736_j44598940402302_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the kernel's value of those arguments in
    their result buffers: the kernel by its run and the three stage arrays, the reference by its run and the law that
    joins the two arrangements of the sums. -/
theorem algebraic : Cert.algebraic_KernelIdeal_ReferenceIdeal := by
  intro m ρ m' ρ' _ hagree
  refine ⟨fun c => Cert.KernelIdeal.Whole.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_value m ρ c), (h c).2⟩)
      (Cert.KernelIdeal.Outcome.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]
    exact (Cert.Agreement.value_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
